-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76_1)) (v1 : (c : Dev Cert.KernelIdeal.nD) → Buf (Elt Ideal) ((c.tc : Thread Cert.KernelIdeal.nD Cert.KernelIdeal.τ).loc Cert.KernelIdeal.main_v76_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_1) = v0 c
          ∧ r.2.mem ((c.tc : Thread Cert.KernelIdeal.nD Cert.KernelIdeal.τ).loc Cert.KernelIdeal.main_v76_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x4 : Shape := ⟨2, ![16, 4]⟩
abbrev S4 : Shape := ⟨1, ![4]⟩
abbrev S4x2 : Shape := ⟨2, ![4, 2]⟩
abbrev S2 : Shape := ⟨1, ![2]⟩
abbrev S2x8 : Shape := ⟨2, ![2, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S2x8 .f32) (main_arg9 : FVec F S8 .f32) (main_v33 : IVec S_ 1) : IVec S_ 1 :=
  let main_v34 : FVec F S2x8 .f32 := Host.absf main_arg8
  let main_cst_12 : FVec F S_ .f32 := constant S_ .f32 0x7F800000#32
  let main_v35 : FVec F S2x8 .f32 := broadcastInDim S2x8 ![] bcast_S_S2x8 main_cst_12
  let main_v36 : IVec S2x8 1 := cmpf .olt main_v34 main_v35
  let main_c_13 : IVec S_ 1 := constantI S_ 1 1#1
  let main_v37 : IVec S_ 1 := (fun x v => Host.reduce IntOp.andi x v reducesTo_S2x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x8 .f32) (main_arg9 : FVec F S8 .f32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x16 .f32) (main_arg3 : FVec F S16 .f32) (main_arg4 : FVec F S16x4 .f32) (main_arg5 : FVec F S4 .f32) (main_arg6 : FVec F S4x2 .f32) (main_arg7 : FVec F S2 .f32) (main_arg8 : FVec F S2x8 .f32) (main_arg9 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x4 .f32 := Host.absf main_arg4
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x4 : Shape := ⟨2, ![16, 4]⟩
abbrev S4 : Shape := ⟨1, ![4]⟩
abbrev S4x2 : Shape := ⟨2, ![4, 2]⟩
abbrev S2 : Shape := ⟨1, ![2]⟩
abbrev S2x8 : Shape := ⟨2, ![2, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩
abbrev S100000x4 : Shape := ⟨2, ![100000, 4]⟩
abbrev S5000x4 : Shape := ⟨2, ![5000, 4]⟩
abbrev S3300000x4 : Shape := ⟨2, ![3300000, 4]⟩
abbrev S1x4 : Shape := ⟨2, ![1, 4]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩
abbrev S1x8 : Shape := ⟨2, ![1, 8]⟩
abbrev S100000x8 : Shape := ⟨2, ![100000, 8]⟩
abbrev S5000x8 : Shape := ⟨2, ![5000, 8]⟩

abbrev nBuf : Space → Nat
  | .hbm => 107
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x8, .f32⟩
  | .hbm, ⟨9, _⟩ => ⟨S8, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x4, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x4, .f32⟩
  | .hbm, ⟨78, _⟩ => ⟨S3300000x1, .f32⟩
  | .hbm, ⟨79, _⟩ => ⟨S3300000x4, .f32⟩
  | .hbm, ⟨80, _⟩ => ⟨S3300000x4, .f32⟩
  | .hbm, ⟨81, _⟩ => ⟨S_, .f32⟩
  | .hbm, ⟨82, _⟩ => ⟨S100000x4, .f32⟩
  | .hbm, ⟨83, _⟩ => ⟨S3300000x1, .i32⟩
  | .hbm, ⟨84, _⟩ => ⟨S100000x4, .f32⟩
  | .hbm, ⟨85, _⟩ => ⟨S1x4, .f32⟩
  | .hbm, ⟨86, _⟩ => ⟨S100000x2, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x2, .f32⟩
  | .hbm, ⟨96, _⟩ => ⟨S3300000x1, .f32⟩
  | .hbm, ⟨97, _⟩ => ⟨S3300000x2, .f32⟩
  | .hbm, ⟨98, _⟩ => ⟨S3300000x2, .f32⟩
  | .hbm, ⟨99, _⟩ => ⟨S_, .f32⟩
  | .hbm, ⟨100, _⟩ => ⟨S100000x2, .f32⟩
  | .hbm, ⟨101, _⟩ => ⟨S3300000x1, .i32⟩
  | .hbm, ⟨102, _⟩ => ⟨S100000x2, .f32⟩
  | .hbm, ⟨103, _⟩ => ⟨S1x2, .f32⟩
  | .hbm, ⟨104, _⟩ => ⟨S1x8, .f32⟩
  | .hbm, ⟨105, _⟩ => ⟨S100000x2, .f32⟩
  | .hbm, ⟨106, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x4, .f32⟩
  | .local _ .vmem, ⟨9, _⟩ => ⟨S5000x4, .f32⟩
  | .local _ .vmem, ⟨10, _⟩ => ⟨S5000x4, .f32⟩
  | .local _ .vmem, ⟨11, _⟩ => ⟨S5000x4, .f32⟩
  | .local _ .vmem, ⟨12, _⟩ => ⟨S5000x4, .f32⟩
  | .local _ .vmem, ⟨13, _⟩ => ⟨S1x4, .f32⟩
  | .local _ .vmem, ⟨14, _⟩ => ⟨S4x2, .f32⟩
  | .local _ .vmem, ⟨15, _⟩ => ⟨S5000x2, .f32⟩
  | .local _ .vmem, ⟨16, _⟩ => ⟨S5000x2, .f32⟩
  | .local _ .vmem, ⟨17, _⟩ => ⟨S5000x2, .f32⟩
  | .local _ .vmem, ⟨18, _⟩ => ⟨S5000x2, .f32⟩
  | .local _ .vmem, ⟨19, _⟩ => ⟨S1x2, .f32⟩
  | .local _ .vmem, ⟨20, _⟩ => ⟨S2x8, .f32⟩
  | .local _ .vmem, ⟨21, _⟩ => ⟨S1x8, .f32⟩
  | .local _ .vmem, ⟨22, _⟩ => ⟨S5000x2, .f32⟩
  | .local _ .vmem, ⟨23, _⟩ => ⟨S5000x2, .f32⟩
  | .local _ .vmem, ⟨24, _⟩ => ⟨S5000x8, .f32⟩
  | .local _ .vmem, ⟨25, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x4_S16x4_0_0 : ∀ a, (![0, 0] : Fin 2 → Nat) a + S16x4.size a ≤ S16x4.size a
  h_S16x4 : 0 < S16x4.numel
  inb_S5000x4_S5000x4_0_0 : ∀ a, (![0, 0] : Fin 2 → Nat) a + S5000x4.size a ≤ S5000x4.size a
  h_S5000x4 : 0 < S5000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S5000x4_S5000x4 : S5000x4.ShapeCasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S4x2_S4x2_0_0 : ∀ a, (![0, 0] : Fin 2 → Nat) a + S4x2.size a ≤ S4x2.size a
  h_S4x2 : 0 < S4x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S8_S1x8 : S8.ShapeCasts S1x8
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S2x8_S2x8_0_0 : ∀ a, (![0, 0] : Fin 2 → Nat) a + S2x8.size a ≤ S2x8.size a
  h_S2x8 : 0 < S2x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x4_S5000x4_1_0_0_1_n_n_wf : DotDims.WF S5000x16 S16x4 S5000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S5000x4_S4x2_S5000x2_1_0_0_1_n_n_wf : DotDims.WF S5000x4 S4x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S5000x2_S2x8_S5000x8_1_0_0_1_n_n_wf : DotDims.WF S5000x2 S2x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x4.size a ≤ S16x4.size a
  hwx1_2 : ∀ i : grid1.Coords, EltTy.bits .f32 = 32 ∨ (Rect.block (s := S16x4) S16x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x4.size a ≤ S100000x4.size a
  hwx1_3 : ∀ i : grid1.Coords, EltTy.bits .f32 = 32 ∨ (Rect.block (s := S100000x4) S5000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S100000x4.size a
  hwx2_0 : ∀ i : grid2.Coords, EltTy.bits .f32 = 32 ∨ (Rect.block (s := S100000x4) S5000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4.size a ≤ S1x4.size a
  hwx2_1 : ∀ i : grid2.Coords, EltTy.bits .f32 = 32 ∨ (Rect.block (s := S1x4) S1x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x2.size a ≤ S4x2.size a
  hwx2_2 : ∀ i : grid2.Coords, EltTy.bits .f32 = 32 ∨ (Rect.block (s := S4x2) S4x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2x8.size a ≤ S2x8.size a
  hwx3_2 : ∀ i : grid3.Coords, EltTy.bits .f32 = 32 ∨ (Rect.block (s := S2x8) S2x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S100000x2.size a
  hwx3_4 : ∀ i : grid3.Coords, EltTy.bits .f32 = 32 ∨ (Rect.block (s := S100000x2) S5000x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x8.size a ≤ S100000x8.size a
  hwx3_5 : ∀ i : grid3.Coords, EltTy.bits .f32 = 32 ∨ (Rect.block (s := S100000x8) S5000x8.size (cc3_transform_5 i) (hinb3_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x4_S5000x4_1_0_0_1_n_n : DotDims S5000x16 S16x4 S5000x4 where
  lhsContracting := [1]
  rhsContracting := [0]
  lhsNonContracting := [0]
  rhsNonContracting := [1]
  lhsBatch := []
  rhsBatch := []
  wf := dot_S5000x16_S16x4_S5000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S5000x4_S4x2_S5000x2_1_0_0_1_n_n : DotDims S5000x4 S4x2 S5000x2 where
  lhsContracting := [1]
  rhsContracting := [0]
  lhsNonContracting := [0]
  rhsNonContracting := [1]
  lhsBatch := []
  rhsBatch := []
  wf := dot_S5000x4_S4x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S5000x2_S2x8_S5000x8_1_0_0_1_n_n : DotDims S5000x2 S2x8 S5000x8 where
  lhsContracting := [1]
  rhsContracting := [0]
  lhsNonContracting := [0]
  rhsNonContracting := [1]
  lhsBatch := []
  rhsBatch := []
  wf := dot_S5000x2_S2x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S4x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S2x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76_0) S5000x2.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v76_1) S5000x8.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x4 : Shape := ⟨2, ![16, 4]⟩
abbrev S4 : Shape := ⟨1, ![4]⟩
abbrev S4x2 : Shape := ⟨2, ![4, 2]⟩
abbrev S2 : Shape := ⟨1, ![2]⟩
abbrev S2x8 : Shape := ⟨2, ![2, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x4 : Shape := ⟨2, ![100000, 4]⟩
abbrev S3300000x4 : Shape := ⟨2, ![3300000, 4]⟩
abbrev S1x4 : Shape := ⟨2, ![1, 4]⟩
abbrev S100000x2 : Shape := ⟨2, ![100000, 2]⟩
abbrev S3300000x2 : Shape := ⟨2, ![3300000, 2]⟩
abbrev S1x2 : Shape := ⟨2, ![1, 2]⟩
abbrev S100000x8 : Shape := ⟨2, ![100000, 8]⟩
abbrev S1x8 : Shape := ⟨2, ![1, 8]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x8, .f32⟩
  | .hbm, ⟨9, _⟩ => ⟨S8, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S100000x4, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x4, .f32⟩
  | .hbm, ⟨81, _⟩ => ⟨S3300000x1, .f32⟩
  | .hbm, ⟨82, _⟩ => ⟨S3300000x4, .f32⟩
  | .hbm, ⟨83, _⟩ => ⟨S3300000x4, .f32⟩
  | .hbm, ⟨84, _⟩ => ⟨S_, .f32⟩
  | .hbm, ⟨85, _⟩ => ⟨S100000x4, .f32⟩
  | .hbm, ⟨86, _⟩ => ⟨S3300000x1, .i32⟩
  | .hbm, ⟨87, _⟩ => ⟨S100000x4, .f32⟩
  | .hbm, ⟨88, _⟩ => ⟨S1x4, .f32⟩
  | .hbm, ⟨89, _⟩ => ⟨S100000x4, .f32⟩
  | .hbm, ⟨90, _⟩ => ⟨S100000x4, .f32⟩
  | .hbm, ⟨91, _⟩ => ⟨S100000x4, .f32⟩
  | .hbm, ⟨92, _⟩ => ⟨S100000x2, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000x2, .f32⟩
  | .hbm, ⟨102, _⟩ => ⟨S3300000x1, .f32⟩
  | .hbm, ⟨103, _⟩ => ⟨S3300000x2, .f32⟩
  | .hbm, ⟨104, _⟩ => ⟨S3300000x2, .f32⟩
  | .hbm, ⟨105, _⟩ => ⟨S_, .f32⟩
  | .hbm, ⟨106, _⟩ => ⟨S100000x2, .f32⟩
  | .hbm, ⟨107, _⟩ => ⟨S3300000x1, .i32⟩
  | .hbm, ⟨108, _⟩ => ⟨S100000x2, .f32⟩
  | .hbm, ⟨109, _⟩ => ⟨S1x2, .f32⟩
  | .hbm, ⟨110, _⟩ => ⟨S100000x2, .f32⟩
  | .hbm, ⟨111, _⟩ => ⟨S100000x2, .f32⟩
  | .hbm, ⟨112, _⟩ => ⟨S100000x2, .f32⟩
  | .hbm, ⟨113, _⟩ => ⟨S100000x8, .f32⟩
  | .hbm, ⟨114, _⟩ => ⟨S1x8, .f32⟩
  | .hbm, ⟨115, _⟩ => ⟨S100000x8, .f32⟩
  | .hbm, ⟨116, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x2_S100000x2_1_0_0_1_n_n_wf : DotDims.WF S100000x4 S4x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S100000x2_S2x8_S100000x8_1_0_0_1_n_n_wf : DotDims.WF S100000x2 S2x8 S100000x8 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S100000x2_S2x8_S100000x8_1_0_0_1_n_n : DotDims S100000x2 S2x8 S100000x8 where
  lhsContracting := [1]
  rhsContracting := [0]
  lhsNonContracting := [0]
  rhsNonContracting := [1]
  lhsBatch := []
  rhsBatch := []
  wf := dot_S100000x2_S2x8_S100000x8_1_0_0_1_n_n_wf

class Facts : Prop extends Facts₀ where

variable [Facts]
-- ==== Proof.HostChain.lean ====
/-
  The sparse part of a graph-convolution layer, as functions on whole arrays: the edge list with one self loop per node
  appended (source and destination node of every edge), the symmetric normalisation weight of every edge — the product of
  the inverse square roots of the in-degrees of its two ends, the in-degree counted with the self loops —, and the
  aggregation of a layer: every edge carries the feature row of its source node, scaled by the edge's weight, to its
  destination node, where the rows that arrive are added up. These are the operations both programs apply between their
  dense stages; they are named here once so that neither side ever has to open them.
-/
import proofs.«142854_j19318762897897_1_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- The source node of every edge, then node n for the self loop of node n. -/
def srcIdx (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The destination node of every edge, then node n for the self loop of node n. -/
def dstIdx (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node numbers as a column of row numbers to gather at, a negative number counted from the end. -/
def wrapCol (idx : IVec S3300000 32) : IVec S3300000x1 32 :=
  broadcastInDim S3300000x1 ![0] bcast_S3300000_S3300000x1_0
    (select (cmpi .slt idx (broadcastInDim S3300000 ![] bcast_S_S3300000 (constantI S_ 32 0#32)))
      (addi idx (broadcastInDim S3300000 ![] bcast_S_S3300000 (constantI S_ 32 100000#32))) idx)

/-- The in-degree of every node: one for every edge that ends there. -/
def deg (d : IVec S3300000 32) : FVec F S100000 .f32 :=
  Host.scatterAdd scatter_S100000_S3300000x1_S3300000_n_0_0_1 (broadcastInDim S100000 ![] bcast_S_S100000 (constant S_ .f32 0x00000000#32))
    (broadcastInDim S3300000x1 ![0] bcast_S3300000_S3300000x1_0 d) (broadcastInDim S3300000 ![] bcast_S_S3300000 (constant S_ .f32 0x3F800000#32))

/-- The inverse square root of the in-degree where it is positive, zero elsewhere. -/
def dinv (d : IVec S3300000 32) : FVec F S100000 .f32 :=
  select (cmpf .ogt (deg (F := F) d) (broadcastInDim S100000 ![] bcast_S_S100000 (constant S_ .f32 0x00000000#32))) (Host.rsqrt (deg (F := F) d))
    (broadcastInDim S100000 ![] bcast_S_S100000 (id (constant S_ .f32 0x00000000#32)))

/-- The weight of every edge: the product of the two ends' inverse square-root degrees. -/
def norm (s d : IVec S3300000 32) : FVec F S3300000 .f32 :=
  mulf (Host.gather gather_S100000_S3300000x1_S3300000_n_0_n_n_0_1_1 (dinv (F := F) d) (wrapCol s))
    (Host.gather gather_S100000_S3300000x1_S3300000_n_0_n_n_0_1_1 (dinv (F := F) d) (wrapCol d))

/-- One layer's aggregation of 16 features per node: gather the source rows, scale by the edge weights, add at the destinations. -/
def agg16 (s d : IVec S3300000 32) (nrm : FVec F S3300000 .f32) (xw : FVec F S100000x16 .f32) : FVec F S100000x16 .f32 :=
  Host.scatterAdd scatter_S100000x16_S3300000x1_S3300000x16_1_0_0_1 (broadcastInDim S100000x16 ![] bcast_S_S100000x16 (constant S_ .f32 0x00000000#32))
    (broadcastInDim S3300000x1 ![0] bcast_S3300000_S3300000x1_0 d)
    (mulf (Host.gather gather_S100000x16_S3300000x1_S3300000x16_1_0_n_n_0_1_116 xw (wrapCol s))
      (broadcastInDim S3300000x16 ![0, 1] bcast_S3300000x1_S3300000x16_0_1 (broadcastInDim S3300000x1 ![0] bcast_S3300000_S3300000x1_0 nrm)))

/-- The same with 4 features per node. -/
def agg4 (s d : IVec S3300000 32) (nrm : FVec F S3300000 .f32) (xw : FVec F S100000x4 .f32) : FVec F S100000x4 .f32 :=
  Host.scatterAdd scatter_S100000x4_S3300000x1_S3300000x4_1_0_0_1 (broadcastInDim S100000x4 ![] bcast_S_S100000x4 (constant S_ .f32 0x00000000#32))
    (broadcastInDim S3300000x1 ![0] bcast_S3300000_S3300000x1_0 d)
    (mulf (Host.gather gather_S100000x4_S3300000x1_S3300000x4_1_0_n_n_0_1_14 xw (wrapCol s))
      (broadcastInDim S3300000x4 ![0, 1] bcast_S3300000x1_S3300000x4_0_1 (broadcastInDim S3300000x1 ![0] bcast_S3300000_S3300000x1_0 nrm)))

/-- The same with 2 features per node. -/
def agg2 (s d : IVec S3300000 32) (nrm : FVec F S3300000 .f32) (xw : FVec F S100000x2 .f32) : FVec F S100000x2 .f32 :=
  Host.scatterAdd scatter_S100000x2_S3300000x1_S3300000x2_1_0_0_1 (broadcastInDim S100000x2 ![] bcast_S_S100000x2 (constant S_ .f32 0x00000000#32))
    (broadcastInDim S3300000x1 ![0] bcast_S3300000_S3300000x1_0 d)
    (mulf (Host.gather gather_S100000x2_S3300000x1_S3300000x2_1_0_n_n_0_1_12 xw (wrapCol s))
      (broadcastInDim S3300000x2 ![0, 1] bcast_S3300000x1_S3300000x2_0_1 (broadcastInDim S3300000x1 ![0] bcast_S3300000_S3300000x1_0 nrm)))

end Cert.KernelIdeal.Chain

end
-- ==== Proof.KStretch.lean ====
/-
  The host stretches between the dense stages, read at the buffers that matter, from any contents U of the buffers at the
  stretch's start. The stretch before the first stage builds the edge list with its self loops and the edge weights from
  the edge array alone; each later stretch aggregates the previous stage's product over the edges and lays the next bias
  vector out as a row. A buffer a stretch does not write keeps its contents.
-/
import proofs.«142854_j19318762897897_1_alg».proof.Proof.Gen.KernelIdeal.Launch
import proofs.«142854_j19318762897897_1_alg».proof.Proof.HostChain
import Idealize.ShloMosaic.Lib.StableHlo.Run
import Idealize.ShloMosaic.PureOps.Ideal

set_option maxRecDepth 16384

noncomputable section

namespace Cert.KernelIdeal.Hand

open Cert.KernelIdeal Cert.KernelIdeal.Gen Cert.KernelIdeal.Chain Cert.KernelIdeal.Facts₀ Cert.KernelIdeal.Facts
open Idealize.ShloMosaic Idealize.ShloMosaic.TcCoe Idealize.ShloMosaic.StableHlo

variable (U : Valuation τ sig (Elt Ideal))

/-! ## Before the first stage -/

theorem pre_v3 : after hostOps0_2 (after hostOps0_1 (after hostOps0 U)) (Proc.devRef .tc main_v3) = srcIdx (U (Proc.devRef .tc main_arg1)) := by
  dsimp only [hostOps0_2, hostOps0_1, hostOps0]
  after_results
  rfl

theorem pre_v6 : after hostOps0_2 (after hostOps0_1 (after hostOps0 U)) (Proc.devRef .tc main_v6) = dstIdx (U (Proc.devRef .tc main_arg1)) := by
  dsimp only [hostOps0_2, hostOps0_1, hostOps0]
  after_results
  rfl

/-- The two later stretches before the first stage, from what the first leaves: the weights from the edge lists, the degree
    test and the inverse square roots. -/
theorem mid_v29 : after hostOps0_2 (after hostOps0_1 U) (Proc.devRef .tc main_v29)
    = mulf (F := Ideal) (φ := .f32)
        (Host.gather gather_S100000_S3300000x1_S3300000_n_0_n_n_0_1_1
          (select (U (Proc.devRef .tc main_v12)) (U (Proc.devRef .tc main_v13)) (broadcastInDim S100000 ![] Facts₀.bcast_S_S100000 (id (U (Proc.devRef .tc main_cst_2)))))
          (wrapCol (U (Proc.devRef .tc main_v3))))
        (Host.gather gather_S100000_S3300000x1_S3300000_n_0_n_n_0_1_1
          (select (U (Proc.devRef .tc main_v12)) (U (Proc.devRef .tc main_v13)) (broadcastInDim S100000 ![] Facts₀.bcast_S_S100000 (id (U (Proc.devRef .tc main_cst_2)))))
          (wrapCol (U (Proc.devRef .tc main_v6)))) := by
  dsimp only [hostOps0_2, hostOps0_1]
  after_results_simp
  rfl

theorem first_v3 : after hostOps0 U (Proc.devRef .tc main_v3) = srcIdx (U (Proc.devRef .tc main_arg1)) := by
  dsimp only [hostOps0]
  after_results
  rfl

theorem first_v6 : after hostOps0 U (Proc.devRef .tc main_v6) = dstIdx (U (Proc.devRef .tc main_arg1)) := by
  dsimp only [hostOps0]
  after_results
  rfl

theorem first_v12 : after hostOps0 U (Proc.devRef .tc main_v12)
    = cmpf .ogt (deg (F := Ideal) (dstIdx (U (Proc.devRef .tc main_arg1)))) (broadcastInDim S100000 ![] Facts₀.bcast_S_S100000 (constant S_ .f32 0x00000000#32)) := by
  dsimp only [hostOps0]
  after_results
  rfl

theorem first_v13 : after hostOps0 U (Proc.devRef .tc main_v13) = Host.rsqrt (deg (F := Ideal) (dstIdx (U (Proc.devRef .tc main_arg1)))) := by
  dsimp only [hostOps0]
  after_results
  rfl

theorem first_cst_2 : after hostOps0 U (Proc.devRef .tc main_cst_2) = constant (F := Ideal) S_ .f32 0x00000000#32 := by
  dsimp only [hostOps0]
  after_results

theorem pre_v29 : after hostOps0_2 (after hostOps0_1 (after hostOps0 U)) (Proc.devRef .tc main_v29)
    = norm (F := Ideal) (srcIdx (U (Proc.devRef .tc main_arg1))) (dstIdx (U (Proc.devRef .tc main_arg1))) := by
  refine (mid_v29 (after hostOps0 U)).trans ?_
  rw [first_v12, first_v13, first_cst_2, first_v3, first_v6]
  rfl

theorem pre_arg0 : after hostOps0_2 (after hostOps0_1 (after hostOps0 U)) (Proc.devRef .tc main_arg0) = U (Proc.devRef .tc main_arg0) := by
  dsimp only [hostOps0_2, hostOps0_1, hostOps0]
  after_results_simp

theorem pre_arg2 : after hostOps0_2 (after hostOps0_1 (after hostOps0 U)) (Proc.devRef .tc main_arg2) = U (Proc.devRef .tc main_arg2) := by
  dsimp only [hostOps0_2, hostOps0_1, hostOps0]
  after_results_simp

theorem pre_arg3 : after hostOps0_2 (after hostOps0_1 (after hostOps0 U)) (Proc.devRef .tc main_arg3) = U (Proc.devRef .tc main_arg3) := by
  dsimp only [hostOps0_2, hostOps0_1, hostOps0]
  after_results_simp

theorem pre_arg4 : after hostOps0_2 (after hostOps0_1 (after hostOps0 U)) (Proc.devRef .tc main_arg4) = U (Proc.devRef .tc main_arg4) := by
  dsimp only [hostOps0_2, hostOps0_1, hostOps0]
  after_results_simp

theorem pre_arg5 : after hostOps0_2 (after hostOps0_1 (after hostOps0 U)) (Proc.devRef .tc main_arg5) = U (Proc.devRef .tc main_arg5) := by
  dsimp only [hostOps0_2, hostOps0_1, hostOps0]
  after_results_simp

theorem pre_arg6 : after hostOps0_2 (after hostOps0_1 (after hostOps0 U)) (Proc.devRef .tc main_arg6) = U (Proc.devRef .tc main_arg6) := by
  dsimp only [hostOps0_2, hostOps0_1, hostOps0]
  after_results_simp

theorem pre_arg7 : after hostOps0_2 (after hostOps0_1 (after hostOps0 U)) (Proc.devRef .tc main_arg7) = U (Proc.devRef .tc main_arg7) := by
  dsimp only [hostOps0_2, hostOps0_1, hostOps0]
  after_results_simp

theorem pre_arg8 : after hostOps0_2 (after hostOps0_1 (after hostOps0 U)) (Proc.devRef .tc main_arg8) = U (Proc.devRef .tc main_arg8) := by
  dsimp only [hostOps0_2, hostOps0_1, hostOps0]
  after_results_simp

theorem pre_arg9 : after hostOps0_2 (after hostOps0_1 (after hostOps0 U)) (Proc.devRef .tc main_arg9) = U (Proc.devRef .tc main_arg9) := by
  dsimp only [hostOps0_2, hostOps0_1, hostOps0]
  after_results_simp

/-! ## Between the first and the second stage -/

theorem h1_v43 : after hostOps1 U (Proc.devRef .tc main_v43)
    = agg16 (F := Ideal) (U (Proc.devRef .tc main_v3)) (U (Proc.devRef .tc main_v6)) (U (Proc.devRef .tc main_v29)) (U (Proc.devRef .tc main_v30)) := by
  dsimp only [hostOps1]
  after_results_simp
  rfl

theorem h1_v44 : after hostOps1 U (Proc.devRef .tc main_v44) = shapeCast S1x16 (U (Proc.devRef .tc main_arg3)) Facts₀.shapeCasts_S16_S1x16 := by
  dsimp only [hostOps1]
  after_results
  rfl

theorem h1_v3 : after hostOps1 U (Proc.devRef .tc main_v3) = U (Proc.devRef .tc main_v3) := by
  dsimp only [hostOps1]
  after_results_simp

theorem h1_v6 : after hostOps1 U (Proc.devRef .tc main_v6) = U (Proc.devRef .tc main_v6) := by
  dsimp only [hostOps1]
  after_results_simp

theorem h1_v29 : after hostOps1 U (Proc.devRef .tc main_v29) = U (Proc.devRef .tc main_v29) := by
  dsimp only [hostOps1]
  after_results_simp

theorem h1_arg4 : after hostOps1 U (Proc.devRef .tc main_arg4) = U (Proc.devRef .tc main_arg4) := by
  dsimp only [hostOps1]
  after_results_simp

theorem h1_arg5 : after hostOps1 U (Proc.devRef .tc main_arg5) = U (Proc.devRef .tc main_arg5) := by
  dsimp only [hostOps1]
  after_results_simp

theorem h1_arg6 : after hostOps1 U (Proc.devRef .tc main_arg6) = U (Proc.devRef .tc main_arg6) := by
  dsimp only [hostOps1]
  after_results_simp

theorem h1_arg7 : after hostOps1 U (Proc.devRef .tc main_arg7) = U (Proc.devRef .tc main_arg7) := by
  dsimp only [hostOps1]
  after_results_simp

theorem h1_arg8 : after hostOps1 U (Proc.devRef .tc main_arg8) = U (Proc.devRef .tc main_arg8) := by
  dsimp only [hostOps1]
  after_results_simp

theorem h1_arg9 : after hostOps1 U (Proc.devRef .tc main_arg9) = U (Proc.devRef .tc main_arg9) := by
  dsimp only [hostOps1]
  after_results_simp

/-! ## Between the second and the third stage -/

theorem h2_v58 : after hostOps2 U (Proc.devRef .tc main_v58)
    = agg4 (F := Ideal) (U (Proc.devRef .tc main_v3)) (U (Proc.devRef .tc main_v6)) (U (Proc.devRef .tc main_v29)) (U (Proc.devRef .tc main_v45)) := by
  dsimp only [hostOps2]
  after_results_simp
  rfl

theorem h2_v59 : after hostOps2 U (Proc.devRef .tc main_v59) = shapeCast S1x4 (U (Proc.devRef .tc main_arg5)) Facts₀.shapeCasts_S4_S1x4 := by
  dsimp only [hostOps2]
  after_results
  rfl

theorem h2_v3 : after hostOps2 U (Proc.devRef .tc main_v3) = U (Proc.devRef .tc main_v3) := by
  dsimp only [hostOps2]
  after_results_simp

theorem h2_v6 : after hostOps2 U (Proc.devRef .tc main_v6) = U (Proc.devRef .tc main_v6) := by
  dsimp only [hostOps2]
  after_results_simp

theorem h2_v29 : after hostOps2 U (Proc.devRef .tc main_v29) = U (Proc.devRef .tc main_v29) := by
  dsimp only [hostOps2]
  after_results_simp

theorem h2_arg6 : after hostOps2 U (Proc.devRef .tc main_arg6) = U (Proc.devRef .tc main_arg6) := by
  dsimp only [hostOps2]
  after_results_simp

theorem h2_arg7 : after hostOps2 U (Proc.devRef .tc main_arg7) = U (Proc.devRef .tc main_arg7) := by
  dsimp only [hostOps2]
  after_results_simp

theorem h2_arg8 : after hostOps2 U (Proc.devRef .tc main_arg8) = U (Proc.devRef .tc main_arg8) := by
  dsimp only [hostOps2]
  after_results_simp

theorem h2_arg9 : after hostOps2 U (Proc.devRef .tc main_arg9) = U (Proc.devRef .tc main_arg9) := by
  dsimp only [hostOps2]
  after_results_simp

/-! ## Between the third and the last stage -/

theorem h3_v73 : after hostOps3 U (Proc.devRef .tc main_v73)
    = agg2 (F := Ideal) (U (Proc.devRef .tc main_v3)) (U (Proc.devRef .tc main_v6)) (U (Proc.devRef .tc main_v29)) (U (Proc.devRef .tc main_v60)) := by
  dsimp only [hostOps3]
  after_results_simp
  rfl

theorem h3_v74 : after hostOps3 U (Proc.devRef .tc main_v74) = shapeCast S1x2 (U (Proc.devRef .tc main_arg7)) Facts₀.shapeCasts_S2_S1x2 := by
  dsimp only [hostOps3]
  after_results
  rfl

theorem h3_v75 : after hostOps3 U (Proc.devRef .tc main_v75) = shapeCast S1x8 (U (Proc.devRef .tc main_arg9)) Facts₀.shapeCasts_S8_S1x8 := by
  dsimp only [hostOps3]
  after_results
  rfl

theorem h3_arg8 : after hostOps3 U (Proc.devRef .tc main_arg8) = U (Proc.devRef .tc main_arg8) := by
  dsimp only [hostOps3]
  after_results_simp

end Cert.KernelIdeal.Hand

end
-- ==== Proof.KRun.lean ====
/-
  The whole program run once more, this time keeping what the last boundary says about every buffer the program does
  not scope: after the fourth dense stage each such buffer holds the contents the fold of host stretches and stage
  write-backs assigns it. The two results are two of these buffers; the ten arguments are ten more.
-/
import proofs.«142854_j19318762897897_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the last boundary's contents
    and the arguments as launched. -/
theorem run_results : θ_run defs (onTc (τ := τ) (main (F := F))) ⟨m, fun _ => 0, ρ⟩ (fun r => ∀ c : Dev nD,
      r.2.mem ((c.tc : Thread nD τ).loc main_v76_1) = W10 m ρ c (Proc.devRef .tc main_v76_1)
      ∧ r.2.mem ((c.tc : Thread nD τ).loc main_v76_0) = W10 m ρ c (Proc.devRef .tc main_v76_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76_1 (by decide)),
       h c _ (mem_uc main_v76_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Hand

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.Spec.lean ====
/-
  The dense stages of a three-layer graph convolution, as functions on whole arrays of extended reals, index by index.
  A layer's dense part is a matrix product x · w (the sum over the shared axis of x(r, k) · w(k, j)); between layers the
  aggregated features get a bias row added and pass through tanh; the last stage adds a second bias row to the product.
  Nothing here mentions a program: both programs' arrays are read against these functions.
-/
import Idealize.ShloMosaic.PureOps.Ideal
import Idealize.ShloMosaic.Lib.ValueIdx

noncomputable section

namespace GcnSpec

open Idealize.ShloMosaic Idealize.ShloMosaic.ValueIdx

/-- An [N, K] array of extended reals. -/
abbrev Mat (N K : Nat) : Type := FVec Ideal ⟨2, ![N, K]⟩ .f32

/-- The row number of an index of an [N, M] array. -/
def row {N M : Nat} (i : (⟨2, ![N, M]⟩ : Shape).Idx) : Fin N := ⟨(i 0).val, (i 0).isLt⟩
/-- The column number of an index of an [N, M] array. -/
def col {N M : Nat} (i : (⟨2, ![N, M]⟩ : Shape).Idx) : Fin M := ⟨(i 1).val, (i 1).isLt⟩

theorem row_ix2 {N M : Nat} (p : Fin N) (q : Fin M) : row (ix2 p q) = p := rfl
theorem col_ix2 {N M : Nat} (p : Fin N) (q : Fin M) : col (ix2 p q) = q := rfl

/-- The matrix product x · w: entry (r, j) is the sum over k of x(r, k) · w(k, j). -/
def proj (N K M : Nat) (x : Mat N K) (w : Mat K M) : Mat N M :=
  fun i => ∑ k : Fin K, x (ix2 (row i) k) * w (ix2 k (col i))

/-- tanh (a + b), the row b added to every row of a. -/
def act (N K : Nat) (a : Mat N K) (b : Mat 1 K) : Mat N K :=
  fun i => Ideal.tanh (a i + b (ix2 0 (col i)))

/-- tanh (a + b) · w. -/
def actProj (N K M : Nat) (a : Mat N K) (b : Mat 1 K) (w : Mat K M) : Mat N M :=
  fun i => ∑ k : Fin K, Ideal.tanh (a (ix2 (row i) k) + b (ix2 0 k)) * w (ix2 k (col i))

/-- tanh (a + b) · w + d, the row d added to every row of the product. -/
def actProjBias (N K M : Nat) (a : Mat N K) (b : Mat 1 K) (w : Mat K M) (d : Mat 1 M) : Mat N M :=
  fun i => (∑ k : Fin K, Ideal.tanh (a (ix2 (row i) k) + b (ix2 0 k)) * w (ix2 k (col i))) + d (ix2 0 (col i))

end GcnSpec

end
-- ==== Proof.Region0.lean ====
/-
  The first dense stage: the node features h [100000, 128] times W1 [128, 16], computed tile by tile, 5000 rows of h per
  grid point against the whole of W1. Tile t of the result is rows 5000 t … 5000 t + 4999 of the product, because entry
  (r, j) of a product only reads row r of the left factor; the twenty tiles cover all rows, so the result array is h · W1.
-/
import proofs.«142854_j19318762897897_1_alg».proof.Proof.Gen.KernelIdeal.Frame
import proofs.«142854_j19318762897897_1_alg».proof.Proof.LibPlainDot
import proofs.«142854_j19318762897897_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz : (![0, 0] : Fin 2 → Nat) = fun _ => 0 := funext fun a => by fin_cases a <;> rfl

/-- The tile product's dimension numbers are those of a plain [5000, 128] × [128, 16] product. -/
theorem plain0 : PlainDot.IsPlain dot_S5000x128_S128x16_S5000x16_1_0_0_1_n_n where
  rank := rfl
  size := rfl
  lhs0 := fun i q => by
    unfold DotDims.lhsIdx
    rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
    rfl
  lhs1 := fun i q => dot_S5000x128_S128x16_S5000x16_1_0_0_1_n_n.lhsIdx_val_of_single rfl i q
  rhs0 := fun i q => dot_S5000x128_S128x16_S5000x16_1_0_0_1_n_n.rhsIdx_val_of_single rfl i q
  rhs1 := fun i q => by
    unfold DotDims.rhsIdx
    rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
    rfl

/-- What one grid point computes, at entry (p, q) of its tile: the sum over k of x(p, k) · w(k, q); rounding the
    operands to a narrower format changes nothing over the extended reals. -/
theorem pay0_apply (x0 : Vec Ideal S5000x128 .f32) (x1 : Vec Ideal S128x16 .f32) (p : Fin 5000) (q : Fin 16) :
    k0_pay1 x0 x1 (ix2 p q) = ∑ k : Fin 128, x0 (ix2 p k) * x1 (ix2 k q) := by
  unfold k0_pay1
  exact PlainDot.matmul_zero_apply dot_S5000x128_S128x16_S5000x16_1_0_0_1_n_n plain0 none
    (truncf .bf16 x0 bitsLt_bf16_f32) (truncf .bf16 x1 bitsLt_bf16_f32) p q

/-- A tile of the product from a tile of rows: if the tile x0 holds rows tv·5000 … of a and x1 is w, then entry y of the
    computed tile is entry i of a · w, i the array index of y. -/
theorem point0 (x0 : Vec Ideal S5000x128 .f32) (x1 : Vec Ideal S128x16 .f32)
    (a : GcnSpec.Mat 100000 128) (w : GcnSpec.Mat 128 16) (y : S5000x16.Idx) (i : S100000x16.Idx) (tv : Nat)
    (h0 : ∀ (p : Fin 5000) (k : Fin 128) (r : Fin 100000), r.val = tv * 5000 + p.val → x0 (ix2 p k) = a (ix2 r k))
    (h1 : ∀ (k : Fin 128) (q : Fin 16), x1 (ix2 k q) = w (ix2 k q))
    (hi0 : (i 0).val = tv * 5000 + (y 0).val) (hi1 : (i 1).val = (y 1).val) :
    k0_pay1 x0 x1 y = GcnSpec.proj 100000 128 16 a w i := by
  obtain ⟨p, q, rfl⟩ : ∃ (p : Fin 5000) (q : Fin 16), y = ix2 p q := ⟨y 0, y 1, eq_ix2 y⟩
  rw [pay0_apply]
  unfold GcnSpec.proj
  refine Finset.sum_congr rfl fun k _ => ?_
  have e1 : (GcnSpec.col i : Fin 16) = q := Fin.ext hi1
  rw [e1, h0 p k (GcnSpec.row i) hi0, h1 k q]

variable (V : (c : Dev nD) → (b : Ref sig .tc) → Buf (Elt Ideal) ((c : Thread nD τ).loc b))

/-- The index maps over the grid: the row tiles of h and of the result move with the point, W1 stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile of h at point t is rows 5000 t … of h. -/
theorem iblk0_0_apply (c : Dev nD) (t : Fin cfg0.N) (p : Fin 5000) (k : Fin 128) (r : Fin 100000) (hr : r.val = t.val * 5000 + p.val) :
    (iblk0 V c 0 t : Vec Ideal S5000x128 .f32) (ix2 p k) = (V c main_arg0 : GcnSpec.Mat 100000 128) (ix2 r k) := by
  obtain ⟨e0, e1, -⟩ := idx0 t
  show V c main_arg0 (((cfg0.win 0).blk t).view.emb (ix2 p k)) = V c main_arg0 (ix2 r k)
  have hidx : ((cfg0.win 0).blk t).view.emb (ix2 p k) = ix2 r k := by
    funext a; apply Fin.ext
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  rw [hidx]

/-- The tile of W1 at any point is W1. -/
theorem iblk0_1_apply (c : Dev nD) (t : Fin cfg0.N) (k : Fin 128) (q : Fin 16) :
    (iblk0 V c 1 t : Vec Ideal S128x16 .f32) (ix2 k q) = (V c main_arg2 : GcnSpec.Mat 128 16) (ix2 k q) := by
  obtain ⟨-, -, e2, e3, -⟩ := idx0 t
  show V c main_arg2 (((cfg0.win 1).blk t).view.emb (ix2 k q)) = V c main_arg2 (ix2 k q)
  have hidx : ((cfg0.win 1).blk t).view.emb (ix2 k q) = ix2 k q := by
    funext a; apply Fin.ext
    match a with
    | ⟨0, _⟩ => show win0_1.index t (0 : Fin 2) * 128 + 1 * k.val = k.val; rw [e2]; omega
    | ⟨1, _⟩ => show win0_1.index t (1 : Fin 2) * 16 + 1 * q.val = q.val; rw [e3]; omega
  rw [hidx]

/-- What point t writes back is tile t of h · W1. -/
theorem flushed0 (c : Dev nD) (t : Fin cfg0.N) :
    (dat0 V c).flushed 2 t = ((cfg0.win 2).blk t).view.read (Elt Ideal) (GcnSpec.proj 100000 128 16 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨-, -, -, -, e4, e5⟩ := idx0 t
  funext j
  refine point0 (iblk0 V c 0 t) (iblk0 V c 1 t) (V c main_arg0) (V c main_arg2) j (((cfg0.win 2).blk t).view.emb j) t.val
    (fun p k r hr => iblk0_0_apply V c t p k r hr) (fun k q => iblk0_1_apply V c t k q) ?_ ?_
  · show win0_2.index t (0 : Fin 2) * 5000 + 1 * (j 0).val = t.val * 5000 + (j 0).val; rw [e4]; omega
  · show win0_2.index t (1 : Fin 2) * 16 + 1 * (j 1).val = (j 1).val; rw [e5]; omega

/-- Every row of the result lies in the tile of the point r / 5000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  show i ∈ ((View.whole main_v30).slice (win0_2.rect ⟨(i 0).val / 5000, ht⟩)).set
  rw [View.set_slice_whole, Rect.mem_set_unit]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e5]; omega

/-- The result array of the first stage is h · W1, of the arrays as the stage finds them. -/
theorem final0 (c : Dev nD) :
    (dat0 V c).arrAt 2 cfg0.N = GcnSpec.proj 100000 128 16 (V c main_arg0) (V c main_arg2) :=
  (dat0 V c).arrAt_eq_of_cover 2 (GcnSpec.proj 100000 128 16 (V c main_arg0) (V c main_arg2))
    (fun t _ => flushed0 V c t) (fun i => cover0 i)

end Cert.KernelIdeal.Hand

end
-- ==== Proof.Region1.lean ====
/-
  The second dense stage: the aggregated features [100000, 16] get the bias row added, pass through tanh, and are multiplied
  by the weights [16, 4], tile by tile, 5000 rows per grid point against the whole bias row and the whole weight
  matrix. Entry (r, j) of tanh (a + b) · w only reads row r of a, so tile t of the result is rows 5000 t … 5000 t + 4999
  of the whole-array function, and the twenty tiles cover all rows.
-/
import proofs.«142854_j19318762897897_1_alg».proof.Proof.Gen.KernelIdeal.Frame
import proofs.«142854_j19318762897897_1_alg».proof.Proof.LibPlainDot
import proofs.«142854_j19318762897897_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen

theorem hz : (![0, 0] : Fin 2 → Nat) = fun _ => 0 := funext fun a => by fin_cases a <;> rfl

/-- The tile product's dimension numbers are those of a plain [5000, 16] × [16, 4] product. -/
theorem plain : PlainDot.IsPlain dot_S5000x16_S16x4_S5000x4_1_0_0_1_n_n where
  rank := rfl
  size := rfl
  lhs0 := fun i q => by
    unfold DotDims.lhsIdx
    rw [dif_neg (show ¬(0 : Fin S5000x16.rank) ∈ dot_S5000x16_S16x4_S5000x4_1_0_0_1_n_n.lhsBatch by decide), dif_pos (show (0 : Fin S5000x16.rank) ∈ dot_S5000x16_S16x4_S5000x4_1_0_0_1_n_n.lhsNonContracting by decide)]
    rfl
  lhs1 := fun i q => dot_S5000x16_S16x4_S5000x4_1_0_0_1_n_n.lhsIdx_val_of_single rfl i q
  rhs0 := fun i q => dot_S5000x16_S16x4_S5000x4_1_0_0_1_n_n.rhsIdx_val_of_single rfl i q
  rhs1 := fun i q => by
    unfold DotDims.rhsIdx
    rw [dif_neg (show ¬(1 : Fin S16x4.rank) ∈ dot_S5000x16_S16x4_S5000x4_1_0_0_1_n_n.rhsBatch by decide), dif_pos (show (1 : Fin S16x4.rank) ∈ dot_S5000x16_S16x4_S5000x4_1_0_0_1_n_n.rhsNonContracting by decide)]
    rfl

/-- What one grid point computes, at entry (p, q) of its tile: the sum over k of tanh (x(p, k) + b(k)) · w(k, q). -/
theorem pay_apply (x0 : Vec Ideal S5000x16 .f32) (x1 : Vec Ideal S1x16 .f32) (x2 : Vec Ideal S16x4 .f32) (p : Fin 5000) (q : Fin 4) :
    k1_pay1 x0 x1 x2 (ix2 p q) = ∑ k : Fin 16, Ideal.tanh (x0 (ix2 p k) + x1 (ix2 0 k)) * x2 (ix2 k q) := by
  unfold k1_pay1
  refine (PlainDot.matmul_zero_apply dot_S5000x16_S16x4_S5000x4_1_0_0_1_n_n plain none
    (truncf .bf16 (tanh (addf (shapeCast S5000x16 x0 shapeCasts_S5000x16_S5000x16) (broadcastTo S5000x16 (shapeCast S1x16 x1 shapeCasts_S1x16_S1x16) broadcasts_S1x16_S5000x16))) bitsLt_bf16_f32)
    (truncf .bf16 x2 bitsLt_bf16_f32) p q).trans ?_
  refine Finset.sum_congr rfl fun k _ => ?_
  show Ideal.tanh (shapeCast S5000x16 x0 shapeCasts_S5000x16_S5000x16 (ix2 p k) + broadcastTo S5000x16 (shapeCast S1x16 x1 shapeCasts_S1x16_S1x16) broadcasts_S1x16_S5000x16 (ix2 p k)) * x2 (ix2 k q) = _
  rw [shapeCast_self, shapeCast_self, broadcastTo_1b_ab_apply]

/-- A tile of the result from a tile of rows: if the tile x0 holds rows tv·5000 … of a, x1 is b and x2 is w, then entry y
    of the computed tile is entry i of tanh (a + b) · w, i the array index of y. -/
theorem point (x0 : Vec Ideal S5000x16 .f32) (x1 : Vec Ideal S1x16 .f32) (x2 : Vec Ideal S16x4 .f32)
    (a : GcnSpec.Mat 100000 16) (b : GcnSpec.Mat 1 16) (w : GcnSpec.Mat 16 4) (y : S5000x4.Idx) (i : S100000x4.Idx) (tv : Nat)
    (h0 : ∀ (p : Fin 5000) (k : Fin 16) (r : Fin 100000), r.val = tv * 5000 + p.val → x0 (ix2 p k) = a (ix2 r k))
    (h1 : ∀ (k : Fin 16), x1 (ix2 0 k) = b (ix2 0 k))
    (h2 : ∀ (k : Fin 16) (q : Fin 4), x2 (ix2 k q) = w (ix2 k q))
    (hi0 : (i 0).val = tv * 5000 + (y 0).val) (hi1 : (i 1).val = (y 1).val) :
    k1_pay1 x0 x1 x2 y = GcnSpec.actProj 100000 16 4 a b w i := by
  obtain ⟨p, q, rfl⟩ : ∃ (p : Fin 5000) (q : Fin 4), y = ix2 p q := ⟨y 0, y 1, eq_ix2 y⟩
  rw [pay_apply]
  unfold GcnSpec.actProj
  refine Finset.sum_congr rfl fun k _ => ?_
  have e1 : (GcnSpec.col i : Fin 4) = q := Fin.ext hi1
  rw [e1, h0 p k (GcnSpec.row i) hi0, h1 k, h2 k q]

variable (V : (c : Dev nD) → (b : Ref sig .tc) → Buf (Elt Ideal) ((c : Thread nD τ).loc b))

/-- The index maps over the grid: the row tiles of the features and of the result move with the point, the bias row and
    the weights stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The tile of the features at point t is rows 5000 t … of the feature array. -/
theorem iblk_0_apply (c : Dev nD) (t : Fin cfg1.N) (p : Fin 5000) (k : Fin 16) (r : Fin 100000) (hr : r.val = t.val * 5000 + p.val) :
    (iblk1 V c 0 t : Vec Ideal S5000x16 .f32) (ix2 p k) = (V c main_v43 : GcnSpec.Mat 100000 16) (ix2 r k) := by
  obtain ⟨e0, e1, -⟩ := idx t
  show V c main_v43 (((cfg1.win 0).blk t).view.emb (ix2 p k)) = V c main_v43 (ix2 r k)
  have hidx : ((cfg1.win 0).blk t).view.emb (ix2 p k) = ix2 r k := by
    funext a; apply Fin.ext
    match a with
    | ⟨0, _⟩ => show win1_0.index t (0 : Fin 2) * 5000 + 1 * p.val = r.val; rw [e0, hr]; omega
    | ⟨1, _⟩ => show win1_0.index t (1 : Fin 2) * 16 + 1 * k.val = k.val; rw [e1]; omega
  rw [hidx]

/-- The tile of the bias row at any point is the bias row. -/
theorem iblk_1_apply (c : Dev nD) (t : Fin cfg1.N) (k : Fin 16) :
    (iblk1 V c 1 t : Vec Ideal S1x16 .f32) (ix2 0 k) = (V c main_v44 : GcnSpec.Mat 1 16) (ix2 0 k) := by
  obtain ⟨-, -, e2, e3, -⟩ := idx t
  show V c main_v44 (((cfg1.win 1).blk t).view.emb (ix2 0 k)) = V c main_v44 (ix2 0 k)
  have hidx : ((cfg1.win 1).blk t).view.emb (ix2 (0 : Fin 1) k) = ix2 (0 : Fin 1) k := by
    funext a; apply Fin.ext
    match a with
    | ⟨0, _⟩ => show win1_1.index t (0 : Fin 2) * 1 + 1 * 0 = 0; rw [e2]
    | ⟨1, _⟩ => show win1_1.index t (1 : Fin 2) * 16 + 1 * k.val = k.val; rw [e3]; omega
  rw [hidx]

/-- The tile of the weights at any point is the weight matrix. -/
theorem iblk_2_apply (c : Dev nD) (t : Fin cfg1.N) (k : Fin 16) (q : Fin 4) :
    (iblk1 V c 2 t : Vec Ideal S16x4 .f32) (ix2 k q) = (V c main_arg4 : GcnSpec.Mat 16 4) (ix2 k q) := by
  obtain ⟨-, -, -, -, e4, e5, -⟩ := idx t
  show V c main_arg4 (((cfg1.win 2).blk t).view.emb (ix2 k q)) = V c main_arg4 (ix2 k q)
  have hidx : ((cfg1.win 2).blk t).view.emb (ix2 k q) = ix2 k q := by
    funext a; apply Fin.ext
    match a with
    | ⟨0, _⟩ => show win1_2.index t (0 : Fin 2) * 16 + 1 * k.val = k.val; rw [e4]; omega
    | ⟨1, _⟩ => show win1_2.index t (1 : Fin 2) * 4 + 1 * q.val = q.val; rw [e5]; omega
  rw [hidx]

/-- What point t writes back is tile t of tanh (a + b) · w. -/
theorem flushed (c : Dev nD) (t : Fin cfg1.N) :
    (dat1 V c).flushed 3 t = ((cfg1.win 3).blk t).view.read (Elt Ideal) (GcnSpec.actProj 100000 16 4 (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x4) hz]
  obtain ⟨-, -, -, -, -, -, e6, e7⟩ := idx t
  funext j
  refine point (iblk1 V c 0 t) (iblk1 V c 1 t) (iblk1 V c 2 t) (V c main_v43) (V c main_v44) (V c main_arg4) j (((cfg1.win 3).blk t).view.emb j) t.val
    (fun p k r hr => iblk_0_apply V c t p k r hr) (fun k => iblk_1_apply V c t k) (fun k q => iblk_2_apply V c t k q) ?_ ?_
  · show win1_3.index t (0 : Fin 2) * 5000 + 1 * (j 0).val = t.val * 5000 + (j 0).val; rw [e6]; omega
  · show win1_3.index t (1 : Fin 2) * 4 + 1 * (j 1).val = (j 1).val; rw [e7]; omega

/-- Every row of the result lies in the tile of the point r / 5000. -/
theorem cover (i : S100000x4.Idx) :
    ∃ t : Fin cfg1.N, (cfg1.win 3).flush t = true ∧ i ∈ ((cfg1.win 3).blk t).view.set := by
  have hi0 : (i 0).val < 100000 := (i 0).isLt
  have hi1 : (i 1).val < 4 := (i 1).isLt
  have hN : cfg1.N = 20 := N_1
  have ht : (i 0).val / 5000 < cfg1.N := by rw [hN]; omega
  obtain ⟨-, -, -, -, -, -, e6, e7⟩ := idx ⟨(i 0).val / 5000, ht⟩
  refine ⟨⟨(i 0).val / 5000, ht⟩, flush1_3 _, ?_⟩
  show i ∈ ((View.whole main_v45).slice (win1_3.rect ⟨(i 0).val / 5000, ht⟩)).set
  rw [View.set_slice_whole, Rect.mem_set_unit]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 4 ≤ (i 1).val ∧ (i 1).val < win1_3.index ⟨(i 0).val / 5000, ht⟩ (1 : Fin 2) * 4 + 4
    rw [e7]; omega

/-- The result array of this stage is tanh (a + b) · w, of the arrays as the stage finds them. -/
theorem final (c : Dev nD) :
    (dat1 V c).arrAt 3 cfg1.N = GcnSpec.actProj 100000 16 4 (V c main_v43) (V c main_v44) (V c main_arg4) :=
  (dat1 V c).arrAt_eq_of_cover 3 (GcnSpec.actProj 100000 16 4 (V c main_v43) (V c main_v44) (V c main_arg4))
    (fun t _ => flushed V c t) (fun i => cover i)

end Cert.KernelIdeal.Hand1

end
-- ==== Proof.Region2.lean ====
/-
  The third dense stage: the aggregated features [100000, 4] get the bias row added, pass through tanh, and are multiplied
  by the weights [4, 2], tile by tile, 5000 rows per grid point against the whole bias row and the whole weight
  matrix. Entry (r, j) of tanh (a + b) · w only reads row r of a, so tile t of the result is rows 5000 t … 5000 t + 4999
  of the whole-array function, and the twenty tiles cover all rows.
-/
import proofs.«142854_j19318762897897_1_alg».proof.Proof.Gen.KernelIdeal.Frame
import proofs.«142854_j19318762897897_1_alg».proof.Proof.LibPlainDot
import proofs.«142854_j19318762897897_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand2

open Cert.KernelIdeal Cert.KernelIdeal.Gen

theorem hz : (![0, 0] : Fin 2 → Nat) = fun _ => 0 := funext fun a => by fin_cases a <;> rfl

/-- The tile product's dimension numbers are those of a plain [5000, 4] × [4, 2] product. -/
theorem plain : PlainDot.IsPlain dot_S5000x4_S4x2_S5000x2_1_0_0_1_n_n where
  rank := rfl
  size := rfl
  lhs0 := fun i q => by
    unfold DotDims.lhsIdx
    rw [dif_neg (show ¬(0 : Fin S5000x4.rank) ∈ dot_S5000x4_S4x2_S5000x2_1_0_0_1_n_n.lhsBatch by decide), dif_pos (show (0 : Fin S5000x4.rank) ∈ dot_S5000x4_S4x2_S5000x2_1_0_0_1_n_n.lhsNonContracting by decide)]
    rfl
  lhs1 := fun i q => dot_S5000x4_S4x2_S5000x2_1_0_0_1_n_n.lhsIdx_val_of_single rfl i q
  rhs0 := fun i q => dot_S5000x4_S4x2_S5000x2_1_0_0_1_n_n.rhsIdx_val_of_single rfl i q
  rhs1 := fun i q => by
    unfold DotDims.rhsIdx
    rw [dif_neg (show ¬(1 : Fin S4x2.rank) ∈ dot_S5000x4_S4x2_S5000x2_1_0_0_1_n_n.rhsBatch by decide), dif_pos (show (1 : Fin S4x2.rank) ∈ dot_S5000x4_S4x2_S5000x2_1_0_0_1_n_n.rhsNonContracting by decide)]
    rfl

/-- What one grid point computes, at entry (p, q) of its tile: the sum over k of tanh (x(p, k) + b(k)) · w(k, q). -/
theorem pay_apply (x0 : Vec Ideal S5000x4 .f32) (x1 : Vec Ideal S1x4 .f32) (x2 : Vec Ideal S4x2 .f32) (p : Fin 5000) (q : Fin 2) :
    k2_pay1 x0 x1 x2 (ix2 p q) = ∑ k : Fin 4, Ideal.tanh (x0 (ix2 p k) + x1 (ix2 0 k)) * x2 (ix2 k q) := by
  unfold k2_pay1
  refine (PlainDot.matmul_zero_apply dot_S5000x4_S4x2_S5000x2_1_0_0_1_n_n plain none
    (truncf .bf16 (tanh (addf (shapeCast S5000x4 x0 shapeCasts_S5000x4_S5000x4) (broadcastTo S5000x4 (shapeCast S1x4 x1 shapeCasts_S1x4_S1x4) broadcasts_S1x4_S5000x4))) bitsLt_bf16_f32)
    (truncf .bf16 x2 bitsLt_bf16_f32) p q).trans ?_
  refine Finset.sum_congr rfl fun k _ => ?_
  show Ideal.tanh (shapeCast S5000x4 x0 shapeCasts_S5000x4_S5000x4 (ix2 p k) + broadcastTo S5000x4 (shapeCast S1x4 x1 shapeCasts_S1x4_S1x4) broadcasts_S1x4_S5000x4 (ix2 p k)) * x2 (ix2 k q) = _
  rw [shapeCast_self, shapeCast_self, broadcastTo_1b_ab_apply]

/-- A tile of the result from a tile of rows: if the tile x0 holds rows tv·5000 … of a, x1 is b and x2 is w, then entry y
    of the computed tile is entry i of tanh (a + b) · w, i the array index of y. -/
theorem point (x0 : Vec Ideal S5000x4 .f32) (x1 : Vec Ideal S1x4 .f32) (x2 : Vec Ideal S4x2 .f32)
    (a : GcnSpec.Mat 100000 4) (b : GcnSpec.Mat 1 4) (w : GcnSpec.Mat 4 2) (y : S5000x2.Idx) (i : S100000x2.Idx) (tv : Nat)
    (h0 : ∀ (p : Fin 5000) (k : Fin 4) (r : Fin 100000), r.val = tv * 5000 + p.val → x0 (ix2 p k) = a (ix2 r k))
    (h1 : ∀ (k : Fin 4), x1 (ix2 0 k) = b (ix2 0 k))
    (h2 : ∀ (k : Fin 4) (q : Fin 2), x2 (ix2 k q) = w (ix2 k q))
    (hi0 : (i 0).val = tv * 5000 + (y 0).val) (hi1 : (i 1).val = (y 1).val) :
    k2_pay1 x0 x1 x2 y = GcnSpec.actProj 100000 4 2 a b w i := by
  obtain ⟨p, q, rfl⟩ : ∃ (p : Fin 5000) (q : Fin 2), y = ix2 p q := ⟨y 0, y 1, eq_ix2 y⟩
  rw [pay_apply]
  unfold GcnSpec.actProj
  refine Finset.sum_congr rfl fun k _ => ?_
  have e1 : (GcnSpec.col i : Fin 2) = q := Fin.ext hi1
  rw [e1, h0 p k (GcnSpec.row i) hi0, h1 k, h2 k q]

variable (V : (c : Dev nD) → (b : Ref sig .tc) → Buf (Elt Ideal) ((c : Thread nD τ).loc b))

/-- The index maps over the grid: the row tiles of the features and of the result move with the point, the bias row and
    the weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The tile of the features at point t is rows 5000 t … of the feature array. -/
theorem iblk_0_apply (c : Dev nD) (t : Fin cfg2.N) (p : Fin 5000) (k : Fin 4) (r : Fin 100000) (hr : r.val = t.val * 5000 + p.val) :
    (iblk2 V c 0 t : Vec Ideal S5000x4 .f32) (ix2 p k) = (V c main_v58 : GcnSpec.Mat 100000 4) (ix2 r k) := by
  obtain ⟨e0, e1, -⟩ := idx t
  show V c main_v58 (((cfg2.win 0).blk t).view.emb (ix2 p k)) = V c main_v58 (ix2 r k)
  have hidx : ((cfg2.win 0).blk t).view.emb (ix2 p k) = ix2 r k := by
    funext a; apply Fin.ext
    match a with
    | ⟨0, _⟩ => show win2_0.index t (0 : Fin 2) * 5000 + 1 * p.val = r.val; rw [e0, hr]; omega
    | ⟨1, _⟩ => show win2_0.index t (1 : Fin 2) * 4 + 1 * k.val = k.val; rw [e1]; omega
  rw [hidx]

/-- The tile of the bias row at any point is the bias row. -/
theorem iblk_1_apply (c : Dev nD) (t : Fin cfg2.N) (k : Fin 4) :
    (iblk2 V c 1 t : Vec Ideal S1x4 .f32) (ix2 0 k) = (V c main_v59 : GcnSpec.Mat 1 4) (ix2 0 k) := by
  obtain ⟨-, -, e2, e3, -⟩ := idx t
  show V c main_v59 (((cfg2.win 1).blk t).view.emb (ix2 0 k)) = V c main_v59 (ix2 0 k)
  have hidx : ((cfg2.win 1).blk t).view.emb (ix2 (0 : Fin 1) k) = ix2 (0 : Fin 1) k := by
    funext a; apply Fin.ext
    match a with
    | ⟨0, _⟩ => show win2_1.index t (0 : Fin 2) * 1 + 1 * 0 = 0; rw [e2]
    | ⟨1, _⟩ => show win2_1.index t (1 : Fin 2) * 4 + 1 * k.val = k.val; rw [e3]; omega
  rw [hidx]

/-- The tile of the weights at any point is the weight matrix. -/
theorem iblk_2_apply (c : Dev nD) (t : Fin cfg2.N) (k : Fin 4) (q : Fin 2) :
    (iblk2 V c 2 t : Vec Ideal S4x2 .f32) (ix2 k q) = (V c main_arg6 : GcnSpec.Mat 4 2) (ix2 k q) := by
  obtain ⟨-, -, -, -, e4, e5, -⟩ := idx t
  show V c main_arg6 (((cfg2.win 2).blk t).view.emb (ix2 k q)) = V c main_arg6 (ix2 k q)
  have hidx : ((cfg2.win 2).blk t).view.emb (ix2 k q) = ix2 k q := by
    funext a; apply Fin.ext
    match a with
    | ⟨0, _⟩ => show win2_2.index t (0 : Fin 2) * 4 + 1 * k.val = k.val; rw [e4]; omega
    | ⟨1, _⟩ => show win2_2.index t (1 : Fin 2) * 2 + 1 * q.val = q.val; rw [e5]; omega
  rw [hidx]

/-- What point t writes back is tile t of tanh (a + b) · w. -/
theorem flushed (c : Dev nD) (t : Fin cfg2.N) :
    (dat2 V c).flushed 3 t = ((cfg2.win 3).blk t).view.read (Elt Ideal) (GcnSpec.actProj 100000 4 2 (V c main_v58) (V c main_v59) (V c main_arg6)) := by
  show (cfg2.win 3).cut (grid2.coords t) ((dat2 V c).after 3 t) = _
  rw [after2_3]
  unfold out2_3
  rw [View.canon_unit_zero hz]
  simp only [View.ld_unit_zero (S := S5000x4) hz, View.ld_unit_zero (S := S1x4) hz, View.ld_unit_zero (S := S4x2) hz]
  obtain ⟨-, -, -, -, -, -, e6, e7⟩ := idx t
  funext j
  refine point (iblk2 V c 0 t) (iblk2 V c 1 t) (iblk2 V c 2 t) (V c main_v58) (V c main_v59) (V c main_arg6) j (((cfg2.win 3).blk t).view.emb j) t.val
    (fun p k r hr => iblk_0_apply V c t p k r hr) (fun k => iblk_1_apply V c t k) (fun k q => iblk_2_apply V c t k q) ?_ ?_
  · show win2_3.index t (0 : Fin 2) * 5000 + 1 * (j 0).val = t.val * 5000 + (j 0).val; rw [e6]; omega
  · show win2_3.index t (1 : Fin 2) * 2 + 1 * (j 1).val = (j 1).val; rw [e7]; omega

/-- Every row of the result lies in the tile of the point r / 5000. -/
theorem cover (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  have hN : cfg2.N = 20 := N_2
  have ht : (i 0).val / 5000 < cfg2.N := by rw [hN]; omega
  obtain ⟨-, -, -, -, -, -, e6, e7⟩ := idx ⟨(i 0).val / 5000, ht⟩
  refine ⟨⟨(i 0).val / 5000, ht⟩, flush2_3 _, ?_⟩
  show i ∈ ((View.whole main_v60).slice (win2_3.rect ⟨(i 0).val / 5000, ht⟩)).set
  rw [View.set_slice_whole, Rect.mem_set_unit]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 2 ≤ (i 1).val ∧ (i 1).val < win2_3.index ⟨(i 0).val / 5000, ht⟩ (1 : Fin 2) * 2 + 2
    rw [e7]; omega

/-- The result array of this stage is tanh (a + b) · w, of the arrays as the stage finds them. -/
theorem final (c : Dev nD) :
    (dat2 V c).arrAt 3 cfg2.N = GcnSpec.actProj 100000 4 2 (V c main_v58) (V c main_v59) (V c main_arg6) :=
  (dat2 V c).arrAt_eq_of_cover 3 (GcnSpec.actProj 100000 4 2 (V c main_v58) (V c main_v59) (V c main_arg6))
    (fun t _ => flushed V c t) (fun i => cover i)

end Cert.KernelIdeal.Hand2

end
-- ==== Proof.Region3.lean ====
/-
  The last dense stage: the aggregated features [100000, 2] get the bias row added and pass through tanh — these are the
  last hidden features, written out as they are — and are then multiplied by the head's weights [2, 8], the head's bias
  row added: the class scores. Both outputs are computed tile by tile, 5000 rows per grid point; entry (r, j) of either
  only reads row r of the features, so tile t of each output is rows 5000 t … 5000 t + 4999 of its whole-array function,
  and the twenty tiles cover all rows.
-/
import proofs.«142854_j19318762897897_1_alg».proof.Proof.Gen.KernelIdeal.Frame
import proofs.«142854_j19318762897897_1_alg».proof.Proof.LibPlainDot
import proofs.«142854_j19318762897897_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand3

open Cert.KernelIdeal Cert.KernelIdeal.Gen

theorem hz : (![0, 0] : Fin 2 → Nat) = fun _ => 0 := funext fun a => by fin_cases a <;> rfl

/-- The tile product's dimension numbers are those of a plain [5000, 2] × [2, 8] product. -/
theorem plain : PlainDot.IsPlain dot_S5000x2_S2x8_S5000x8_1_0_0_1_n_n where
  rank := rfl
  size := rfl
  lhs0 := fun i q => by
    unfold DotDims.lhsIdx
    rw [dif_neg (show ¬(0 : Fin S5000x2.rank) ∈ dot_S5000x2_S2x8_S5000x8_1_0_0_1_n_n.lhsBatch by decide), dif_pos (show (0 : Fin S5000x2.rank) ∈ dot_S5000x2_S2x8_S5000x8_1_0_0_1_n_n.lhsNonContracting by decide)]
    rfl
  lhs1 := fun i q => dot_S5000x2_S2x8_S5000x8_1_0_0_1_n_n.lhsIdx_val_of_single rfl i q
  rhs0 := fun i q => dot_S5000x2_S2x8_S5000x8_1_0_0_1_n_n.rhsIdx_val_of_single rfl i q
  rhs1 := fun i q => by
    unfold DotDims.rhsIdx
    rw [dif_neg (show ¬(1 : Fin S2x8.rank) ∈ dot_S5000x2_S2x8_S5000x8_1_0_0_1_n_n.rhsBatch by decide), dif_pos (show (1 : Fin S2x8.rank) ∈ dot_S5000x2_S2x8_S5000x8_1_0_0_1_n_n.rhsNonContracting by decide)]
    rfl

/-- The hidden features one grid point computes, at entry (p, k) of its tile: tanh (x(p, k) + b(k)). -/
theorem pay_h_apply (x0 : Vec Ideal S5000x2 .f32) (x1 : Vec Ideal S1x2 .f32) (p : Fin 5000) (k : Fin 2) :
    k3_pay1 x0 x1 (ix2 p k) = Ideal.tanh (x0 (ix2 p k) + x1 (ix2 0 k)) := by
  unfold k3_pay1
  show Ideal.tanh (shapeCast S5000x2 x0 shapeCasts_S5000x2_S5000x2 (ix2 p k) + broadcastTo S5000x2 (shapeCast S1x2 x1 shapeCasts_S1x2_S1x2) broadcasts_S1x2_S5000x2 (ix2 p k)) = _
  rw [shapeCast_self, shapeCast_self, broadcastTo_1b_ab_apply]

/-- The scores one grid point computes, at entry (p, q) of its tile: the sum over k of tanh (x(p, k) + b(k)) · w(k, q),
    plus d(q). -/
theorem pay_o_apply (x0 : Vec Ideal S5000x2 .f32) (x1 : Vec Ideal S1x2 .f32) (x2 : Vec Ideal S2x8 .f32) (x3 : Vec Ideal S1x8 .f32) (p : Fin 5000) (q : Fin 8) :
    k3_pay2 x0 x1 x2 x3 (ix2 p q) = (∑ k : Fin 2, Ideal.tanh (x0 (ix2 p k) + x1 (ix2 0 k)) * x2 (ix2 k q)) + x3 (ix2 0 q) := by
  unfold k3_pay2
  show FloatOps.matmul dot_S5000x2_S2x8_S5000x8_1_0_0_1_n_n none (truncf .bf16 (k3_pay1 x0 x1) bitsLt_bf16_f32) (truncf .bf16 x2 bitsLt_bf16_f32) (constant S5000x8 .f32 0x00000000#32) (ix2 p q)
      + broadcastTo S5000x8 (shapeCast S1x8 x3 shapeCasts_S1x8_S1x8) broadcasts_S1x8_S5000x8 (ix2 p q) = _
  rw [PlainDot.matmul_zero_apply dot_S5000x2_S2x8_S5000x8_1_0_0_1_n_n plain none (truncf .bf16 (k3_pay1 x0 x1) bitsLt_bf16_f32) (truncf .bf16 x2 bitsLt_bf16_f32) p q,
    shapeCast_self, broadcastTo_1b_ab_apply]
  refine congrArg (· + x3 (ix2 0 q)) (Finset.sum_congr rfl fun k _ => ?_)
  show k3_pay1 x0 x1 (ix2 p k) * x2 (ix2 k q) = _
  rw [pay_h_apply]

/-- A tile of the hidden features from a tile of rows. -/
theorem point_h (x0 : Vec Ideal S5000x2 .f32) (x1 : Vec Ideal S1x2 .f32)
    (a : GcnSpec.Mat 100000 2) (b : GcnSpec.Mat 1 2) (y : S5000x2.Idx) (i : S100000x2.Idx) (tv : Nat)
    (h0 : ∀ (p : Fin 5000) (k : Fin 2) (r : Fin 100000), r.val = tv * 5000 + p.val → x0 (ix2 p k) = a (ix2 r k))
    (h1 : ∀ (k : Fin 2), x1 (ix2 0 k) = b (ix2 0 k))
    (hi0 : (i 0).val = tv * 5000 + (y 0).val) (hi1 : (i 1).val = (y 1).val) :
    k3_pay1 x0 x1 y = GcnSpec.act 100000 2 a b i := by
  obtain ⟨p, k, rfl⟩ : ∃ (p : Fin 5000) (k : Fin 2), y = ix2 p k := ⟨y 0, y 1, eq_ix2 y⟩
  rw [pay_h_apply]
  unfold GcnSpec.act
  have e1 : (GcnSpec.col i : Fin 2) = k := Fin.ext hi1
  have e0 : i = ix2 (GcnSpec.row i) (GcnSpec.col i) := eq_ix2 i
  rw [e0, GcnSpec.col_ix2, e1, h0 p k (GcnSpec.row i) hi0, h1 k]

/-- A tile of the scores from a tile of rows. -/
theorem point_o (x0 : Vec Ideal S5000x2 .f32) (x1 : Vec Ideal S1x2 .f32) (x2 : Vec Ideal S2x8 .f32) (x3 : Vec Ideal S1x8 .f32)
    (a : GcnSpec.Mat 100000 2) (b : GcnSpec.Mat 1 2) (w : GcnSpec.Mat 2 8) (d : GcnSpec.Mat 1 8) (y : S5000x8.Idx) (i : S100000x8.Idx) (tv : Nat)
    (h0 : ∀ (p : Fin 5000) (k : Fin 2) (r : Fin 100000), r.val = tv * 5000 + p.val → x0 (ix2 p k) = a (ix2 r k))
    (h1 : ∀ (k : Fin 2), x1 (ix2 0 k) = b (ix2 0 k))
    (h2 : ∀ (k : Fin 2) (q : Fin 8), x2 (ix2 k q) = w (ix2 k q))
    (h3 : ∀ (q : Fin 8), x3 (ix2 0 q) = d (ix2 0 q))
    (hi0 : (i 0).val = tv * 5000 + (y 0).val) (hi1 : (i 1).val = (y 1).val) :
    k3_pay2 x0 x1 x2 x3 y = GcnSpec.actProjBias 100000 2 8 a b w d i := by
  obtain ⟨p, q, rfl⟩ : ∃ (p : Fin 5000) (q : Fin 8), y = ix2 p q := ⟨y 0, y 1, eq_ix2 y⟩
  rw [pay_o_apply]
  unfold GcnSpec.actProjBias
  have e1 : (GcnSpec.col i : Fin 8) = q := Fin.ext hi1
  rw [e1, h3 q]
  refine congrArg (· + d (ix2 0 q)) (Finset.sum_congr rfl fun k _ => ?_)
  rw [h0 p k (GcnSpec.row i) hi0, h1 k, h2 k q]

variable (V : (c : Dev nD) → (b : Ref sig .tc) → Buf (Elt Ideal) ((c : Thread nD τ).loc b))

/-- The index maps over the grid: the row tiles of the features and of both outputs move with the point; the two bias
    rows and the weights stay. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem iblk_0_apply (c : Dev nD) (t : Fin cfg3.N) (p : Fin 5000) (k : Fin 2) (r : Fin 100000) (hr : r.val = t.val * 5000 + p.val) :
    (iblk3 V c 0 t : Vec Ideal S5000x2 .f32) (ix2 p k) = (V c main_v73 : GcnSpec.Mat 100000 2) (ix2 r k) := by
  obtain ⟨e0, e1, -⟩ := idx t
  show V c main_v73 (((cfg3.win 0).blk t).view.emb (ix2 p k)) = V c main_v73 (ix2 r k)
  have hidx : ((cfg3.win 0).blk t).view.emb (ix2 p k) = ix2 r k := by
    funext a; apply Fin.ext
    match a with
    | ⟨0, _⟩ => show win3_0.index t (0 : Fin 2) * 5000 + 1 * p.val = r.val; rw [e0, hr]; omega
    | ⟨1, _⟩ => show win3_0.index t (1 : Fin 2) * 2 + 1 * k.val = k.val; rw [e1]; omega
  rw [hidx]

theorem iblk_1_apply (c : Dev nD) (t : Fin cfg3.N) (k : Fin 2) :
    (iblk3 V c 1 t : Vec Ideal S1x2 .f32) (ix2 0 k) = (V c main_v74 : GcnSpec.Mat 1 2) (ix2 0 k) := by
  obtain ⟨-, -, e2, e3, -⟩ := idx t
  show V c main_v74 (((cfg3.win 1).blk t).view.emb (ix2 0 k)) = V c main_v74 (ix2 0 k)
  have hidx : ((cfg3.win 1).blk t).view.emb (ix2 (0 : Fin 1) k) = ix2 (0 : Fin 1) k := by
    funext a; apply Fin.ext
    match a with
    | ⟨0, _⟩ => show win3_1.index t (0 : Fin 2) * 1 + 1 * 0 = 0; rw [e2]
    | ⟨1, _⟩ => show win3_1.index t (1 : Fin 2) * 2 + 1 * k.val = k.val; rw [e3]; omega
  rw [hidx]

theorem iblk_2_apply (c : Dev nD) (t : Fin cfg3.N) (k : Fin 2) (q : Fin 8) :
    (iblk3 V c 2 t : Vec Ideal S2x8 .f32) (ix2 k q) = (V c main_arg8 : GcnSpec.Mat 2 8) (ix2 k q) := by
  obtain ⟨-, -, -, -, e4, e5, -⟩ := idx t
  show V c main_arg8 (((cfg3.win 2).blk t).view.emb (ix2 k q)) = V c main_arg8 (ix2 k q)
  have hidx : ((cfg3.win 2).blk t).view.emb (ix2 k q) = ix2 k q := by
    funext a; apply Fin.ext
    match a with
    | ⟨0, _⟩ => show win3_2.index t (0 : Fin 2) * 2 + 1 * k.val = k.val; rw [e4]; omega
    | ⟨1, _⟩ => show win3_2.index t (1 : Fin 2) * 8 + 1 * q.val = q.val; rw [e5]; omega
  rw [hidx]

theorem iblk_3_apply (c : Dev nD) (t : Fin cfg3.N) (q : Fin 8) :
    (iblk3 V c 3 t : Vec Ideal S1x8 .f32) (ix2 0 q) = (V c main_v75 : GcnSpec.Mat 1 8) (ix2 0 q) := by
  obtain ⟨-, -, -, -, -, -, e6, e7, -⟩ := idx t
  show V c main_v75 (((cfg3.win 3).blk t).view.emb (ix2 0 q)) = V c main_v75 (ix2 0 q)
  have hidx : ((cfg3.win 3).blk t).view.emb (ix2 (0 : Fin 1) q) = ix2 (0 : Fin 1) q := by
    funext a; apply Fin.ext
    match a with
    | ⟨0, _⟩ => show win3_3.index t (0 : Fin 2) * 1 + 1 * 0 = 0; rw [e6]
    | ⟨1, _⟩ => show win3_3.index t (1 : Fin 2) * 8 + 1 * q.val = q.val; rw [e7]; omega
  rw [hidx]

/-- What point t writes back to the hidden features is tile t of tanh (a + b). -/
theorem flushed_h (c : Dev nD) (t : Fin cfg3.N) :
    (dat3 V c).flushed 4 t = ((cfg3.win 4).blk t).view.read (Elt Ideal) (GcnSpec.act 100000 2 (V c main_v73) (V c main_v74)) := by
  show (cfg3.win 4).cut (grid3.coords t) ((dat3 V c).after 4 t) = _
  rw [after3_4]
  unfold out3_4
  rw [View.canon_unit_zero hz]
  simp only [View.ld_unit_zero (S := S5000x2) hz, View.ld_unit_zero (S := S1x2) hz]
  obtain ⟨-, -, -, -, -, -, -, -, e8, e9, -⟩ := idx t
  funext j
  refine point_h (iblk3 V c 0 t) (iblk3 V c 1 t) (V c main_v73) (V c main_v74) j (((cfg3.win 4).blk t).view.emb j) t.val
    (fun p k r hr => iblk_0_apply V c t p k r hr) (fun k => iblk_1_apply V c t k) ?_ ?_
  · show win3_4.index t (0 : Fin 2) * 5000 + 1 * (j 0).val = t.val * 5000 + (j 0).val; rw [e8]; omega
  · show win3_4.index t (1 : Fin 2) * 2 + 1 * (j 1).val = (j 1).val; rw [e9]; omega

/-- What point t writes back to the scores is tile t of tanh (a + b) · w + d. -/
theorem flushed_o (c : Dev nD) (t : Fin cfg3.N) :
    (dat3 V c).flushed 5 t = ((cfg3.win 5).blk t).view.read (Elt Ideal) (GcnSpec.actProjBias 100000 2 8 (V c main_v73) (V c main_v74) (V c main_arg8) (V c main_v75)) := by
  show (cfg3.win 5).cut (grid3.coords t) ((dat3 V c).after 5 t) = _
  rw [after3_5]
  unfold out3_5
  rw [View.canon_unit_zero hz]
  simp only [View.ld_unit_zero (S := S5000x2) hz, View.ld_unit_zero (S := S1x2) hz, View.ld_unit_zero (S := S2x8) hz, View.ld_unit_zero (S := S1x8) hz]
  obtain ⟨-, -, -, -, -, -, -, -, -, -, e10, e11⟩ := idx t
  funext j
  refine point_o (iblk3 V c 0 t) (iblk3 V c 1 t) (iblk3 V c 2 t) (iblk3 V c 3 t) (V c main_v73) (V c main_v74) (V c main_arg8) (V c main_v75) j (((cfg3.win 5).blk t).view.emb j) t.val
    (fun p k r hr => iblk_0_apply V c t p k r hr) (fun k => iblk_1_apply V c t k) (fun k q => iblk_2_apply V c t k q) (fun q => iblk_3_apply V c t q) ?_ ?_
  · show win3_5.index t (0 : Fin 2) * 5000 + 1 * (j 0).val = t.val * 5000 + (j 0).val; rw [e10]; omega
  · show win3_5.index t (1 : Fin 2) * 8 + 1 * (j 1).val = (j 1).val; rw [e11]; omega

/-- Every row of the hidden features lies in the tile of the point r / 5000. -/
theorem cover_h (i : S100000x2.Idx) :
    ∃ t : Fin cfg3.N, (cfg3.win 4).flush t = true ∧ i ∈ ((cfg3.win 4).blk t).view.set := by
  have hi0 : (i 0).val < 100000 := (i 0).isLt
  have hi1 : (i 1).val < 2 := (i 1).isLt
  have hN : cfg3.N = 20 := N_3
  have ht : (i 0).val / 5000 < cfg3.N := by rw [hN]; omega
  obtain ⟨-, -, -, -, -, -, -, -, e8, e9, -⟩ := idx ⟨(i 0).val / 5000, ht⟩
  refine ⟨⟨(i 0).val / 5000, ht⟩, flush3_4 _, ?_⟩
  show i ∈ ((View.whole main_v76_0).slice (win3_4.rect ⟨(i 0).val / 5000, ht⟩)).set
  rw [View.set_slice_whole, Rect.mem_set_unit]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, ht⟩ (1 : Fin 2) * 2 ≤ (i 1).val ∧ (i 1).val < win3_4.index ⟨(i 0).val / 5000, ht⟩ (1 : Fin 2) * 2 + 2
    rw [e9]; omega

/-- Every row of the scores lies in the tile of the point r / 5000. -/
theorem cover_o (i : S100000x8.Idx) :
    ∃ t : Fin cfg3.N, (cfg3.win 5).flush t = true ∧ i ∈ ((cfg3.win 5).blk t).view.set := by
  have hi0 : (i 0).val < 100000 := (i 0).isLt
  have hi1 : (i 1).val < 8 := (i 1).isLt
  have hN : cfg3.N = 20 := N_3
  have ht : (i 0).val / 5000 < cfg3.N := by rw [hN]; omega
  obtain ⟨-, -, -, -, -, -, -, -, -, -, e10, e11⟩ := idx ⟨(i 0).val / 5000, ht⟩
  refine ⟨⟨(i 0).val / 5000, ht⟩, flush3_5 _, ?_⟩
  show i ∈ ((View.whole main_v76_1).slice (win3_5.rect ⟨(i 0).val / 5000, ht⟩)).set
  rw [View.set_slice_whole, Rect.mem_set_unit]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ (1 : Fin 2) * 8 ≤ (i 1).val ∧ (i 1).val < win3_5.index ⟨(i 0).val / 5000, ht⟩ (1 : Fin 2) * 8 + 8
    rw [e11]; omega

/-- The hidden-features array of the last stage is tanh (a + b), of the arrays as the stage finds them. -/
theorem final_h (c : Dev nD) :
    (dat3 V c).arrAt 4 cfg3.N = GcnSpec.act 100000 2 (V c main_v73) (V c main_v74) :=
  (dat3 V c).arrAt_eq_of_cover 4 (GcnSpec.act 100000 2 (V c main_v73) (V c main_v74))
    (fun t _ => flushed_h V c t) (fun i => cover_h i)

/-- The scores array of the last stage is tanh (a + b) · w + d, of the arrays as the stage finds them. -/
theorem final_o (c : Dev nD) :
    (dat3 V c).arrAt 5 cfg3.N = GcnSpec.actProjBias 100000 2 8 (V c main_v73) (V c main_v74) (V c main_arg8) (V c main_v75) :=
  (dat3 V c).arrAt_eq_of_cover 5 (GcnSpec.actProjBias 100000 2 8 (V c main_v73) (V c main_v74) (V c main_arg8) (V c main_v75))
    (fun t _ => flushed_o V c t) (fun i => cover_o i)

end Cert.KernelIdeal.Hand3

end
-- ==== Proof.Stages.lean ====
/-
  The whole network as one function of its ten arguments, over the extended reals: three graph-convolution layers (dense
  product, aggregation over the edges, bias and tanh) and the final linear head. Both programs are proved to end with
  these two arrays: the class scores and the last hidden features.
-/
import proofs.«142854_j19318762897897_1_alg».proof.Proof.HostChain
import proofs.«142854_j19318762897897_1_alg».proof.Proof.Spec

noncomputable section

namespace Cert.KernelIdeal.Chain

open Cert.KernelIdeal Idealize.ShloMosaic Idealize.ShloMosaic.ValueIdx

/-- A bias vector as the one-row array whose row it is. -/
def rowOf (K : Nat) (b : FVec Ideal ⟨1, ![K]⟩ .f32) : GcnSpec.Mat 1 K := fun i => b (ix1 (GcnSpec.col i))

/-- The first layer's aggregated features, before its bias and tanh. -/
def layer1 (x0 : FVec Ideal S100000x128 .f32) (e : IVec S2x3200000 32) (w1 : FVec Ideal S128x16 .f32) : FVec Ideal S100000x16 .f32 :=
  agg16 (srcIdx e) (dstIdx e) (norm (srcIdx e) (dstIdx e)) (GcnSpec.proj 100000 128 16 x0 w1)

/-- The second layer's aggregated features, before its bias and tanh. -/
def layer2 (x0 : FVec Ideal S100000x128 .f32) (e : IVec S2x3200000 32) (w1 : FVec Ideal S128x16 .f32) (b1 : FVec Ideal S16 .f32)
    (w2 : FVec Ideal S16x4 .f32) : FVec Ideal S100000x4 .f32 :=
  agg4 (srcIdx e) (dstIdx e) (norm (srcIdx e) (dstIdx e)) (GcnSpec.actProj 100000 16 4 (layer1 x0 e w1) (rowOf 16 b1) w2)

/-- The third layer's aggregated features, before its bias and tanh. -/
def layer3 (x0 : FVec Ideal S100000x128 .f32) (e : IVec S2x3200000 32) (w1 : FVec Ideal S128x16 .f32) (b1 : FVec Ideal S16 .f32)
    (w2 : FVec Ideal S16x4 .f32) (b2 : FVec Ideal S4 .f32) (w3 : FVec Ideal S4x2 .f32) : FVec Ideal S100000x2 .f32 :=
  agg2 (srcIdx e) (dstIdx e) (norm (srcIdx e) (dstIdx e)) (GcnSpec.actProj 100000 4 2 (layer2 x0 e w1 b1 w2) (rowOf 4 b2) w3)

/-- The last hidden features: tanh of the third layer plus its bias. -/
def hidden (x0 : FVec Ideal S100000x128 .f32) (e : IVec S2x3200000 32) (w1 : FVec Ideal S128x16 .f32) (b1 : FVec Ideal S16 .f32)
    (w2 : FVec Ideal S16x4 .f32) (b2 : FVec Ideal S4 .f32) (w3 : FVec Ideal S4x2 .f32) (b3 : FVec Ideal S2 .f32) : FVec Ideal S100000x2 .f32 :=
  GcnSpec.act 100000 2 (layer3 x0 e w1 b1 w2 b2 w3) (rowOf 2 b3)

/-- The class scores: the last hidden features times the head's weights, plus the head's bias. -/
def scores (x0 : FVec Ideal S100000x128 .f32) (e : IVec S2x3200000 32) (w1 : FVec Ideal S128x16 .f32) (b1 : FVec Ideal S16 .f32)
    (w2 : FVec Ideal S16x4 .f32) (b2 : FVec Ideal S4 .f32) (w3 : FVec Ideal S4x2 .f32) (b3 : FVec Ideal S2 .f32)
    (wc : FVec Ideal S2x8 .f32) (bc : FVec Ideal S8 .f32) : FVec Ideal S100000x8 .f32 :=
  GcnSpec.actProjBias 100000 2 8 (layer3 x0 e w1 b1 w2 b2 w3) (rowOf 2 b3) wc (rowOf 8 bc)

end Cert.KernelIdeal.Chain

end
-- ==== Proof.KChain.lean ====
/-
  The program's run followed from the launch to the return, one boundary at a time. Before the first dense stage the
  host builds the edge list and the edge weights from the edge array; each dense stage leaves its whole-array function
  of what it finds; each host stretch between two stages aggregates the stage's product over the edges and lays out the
  next bias row; nothing ever writes an argument, the edge list or the edge weights again. Composed, the two results are
  the network's class scores and last hidden features as functions of the ten arguments.
-/
import proofs.«142854_j19318762897897_1_alg».proof.Proof.Gen.KernelIdeal.Frame
import proofs.«142854_j19318762897897_1_alg».proof.Proof.KStretch
import proofs.«142854_j19318762897897_1_alg».proof.Proof.KRun
import proofs.«142854_j19318762897897_1_alg».proof.Proof.Region0
import proofs.«142854_j19318762897897_1_alg».proof.Proof.Region1
import proofs.«142854_j19318762897897_1_alg».proof.Proof.Region2
import proofs.«142854_j19318762897897_1_alg».proof.Proof.Region3
import proofs.«142854_j19318762897897_1_alg».proof.Proof.Stages
import Idealize.ShloMosaic.Lib.ValueLayout

set_option maxRecDepth 16384

noncomputable section

namespace Cert.KernelIdeal.Hand

open Cert.KernelIdeal Cert.KernelIdeal.Gen Cert.KernelIdeal.Chain Cert.KernelIdeal.Facts₀ Cert.KernelIdeal.Facts
open Idealize.ShloMosaic Idealize.ShloMosaic.TcCoe Idealize.ShloMosaic.StableHlo Idealize.ShloMosaic.ValueIdx Idealize.SL.Sem

/-- A bias vector recast as a one-row array is the row it is. -/
theorem row_of_cast (K : Nat) (b : FVec Ideal ⟨1, ![K]⟩ .f32) (h : (⟨1, ![K]⟩ : Shape).ShapeCasts ⟨2, ![1, K]⟩) :
    shapeCast ⟨2, ![1, K]⟩ b h = rowOf K b := by
  funext i
  obtain ⟨u, k, rfl⟩ : ∃ (u : Fin 1) (k : Fin K), i = ix2 u k := ⟨i 0, i 1, eq_ix2 i⟩
  exact shapeCast_a_1a_apply b h u k

variable (m : (ℓ : Loc nD τ sig) → Buf (Elt Ideal) ℓ) (ρ : Dev nD → PrngReg) (c : Dev nD)

/-- The ten arguments as launched. -/
abbrev X0 : FVec Ideal S100000x128 .f32 := m ((c.tc : Thread nD τ).loc main_arg0)
abbrev X1 : IVec S2x3200000 32 := m ((c.tc : Thread nD τ).loc main_arg1)
abbrev X2 : FVec Ideal S128x16 .f32 := m ((c.tc : Thread nD τ).loc main_arg2)
abbrev X3 : FVec Ideal S16 .f32 := m ((c.tc : Thread nD τ).loc main_arg3)
abbrev X4 : FVec Ideal S16x4 .f32 := m ((c.tc : Thread nD τ).loc main_arg4)
abbrev X5 : FVec Ideal S4 .f32 := m ((c.tc : Thread nD τ).loc main_arg5)
abbrev X6 : FVec Ideal S4x2 .f32 := m ((c.tc : Thread nD τ).loc main_arg6)
abbrev X7 : FVec Ideal S2 .f32 := m ((c.tc : Thread nD τ).loc main_arg7)
abbrev X8 : FVec Ideal S2x8 .f32 := m ((c.tc : Thread nD τ).loc main_arg8)
abbrev X9 : FVec Ideal S8 .f32 := m ((c.tc : Thread nD τ).loc main_arg9)

/-! ## At the first stage's entry -/

theorem w3_v3 : W3 m ρ c (Proc.devRef .tc main_v3) = srcIdx (X1 m c) := pre_v3 (W0 m ρ c)
theorem w3_v6 : W3 m ρ c (Proc.devRef .tc main_v6) = dstIdx (X1 m c) := pre_v6 (W0 m ρ c)
theorem w3_v29 : W3 m ρ c (Proc.devRef .tc main_v29) = norm (F := Ideal) (srcIdx (X1 m c)) (dstIdx (X1 m c)) := pre_v29 (W0 m ρ c)
theorem w3_arg0 : W3 m ρ c (Proc.devRef .tc main_arg0) = X0 m c := pre_arg0 (W0 m ρ c)
theorem w3_arg2 : W3 m ρ c (Proc.devRef .tc main_arg2) = X2 m c := pre_arg2 (W0 m ρ c)
theorem w3_arg3 : W3 m ρ c (Proc.devRef .tc main_arg3) = X3 m c := pre_arg3 (W0 m ρ c)
theorem w3_arg4 : W3 m ρ c (Proc.devRef .tc main_arg4) = X4 m c := pre_arg4 (W0 m ρ c)
theorem w3_arg5 : W3 m ρ c (Proc.devRef .tc main_arg5) = X5 m c := pre_arg5 (W0 m ρ c)
theorem w3_arg6 : W3 m ρ c (Proc.devRef .tc main_arg6) = X6 m c := pre_arg6 (W0 m ρ c)
theorem w3_arg7 : W3 m ρ c (Proc.devRef .tc main_arg7) = X7 m c := pre_arg7 (W0 m ρ c)
theorem w3_arg8 : W3 m ρ c (Proc.devRef .tc main_arg8) = X8 m c := pre_arg8 (W0 m ρ c)
theorem w3_arg9 : W3 m ρ c (Proc.devRef .tc main_arg9) = X9 m c := pre_arg9 (W0 m ρ c)

/-! ## After the first stage -/

theorem w4_v30 : W4 m ρ c (Proc.devRef .tc main_v30) = GcnSpec.proj 100000 128 16 (X0 m c) (X2 m c) := by
  refine (W4_arr m ρ c 2).trans ((final0 (V3 m ρ) c).trans ?_)
  rw [show V3 m ρ c main_arg0 = X0 m c from w3_arg0 m ρ c, show V3 m ρ c main_arg2 = X2 m c from w3_arg2 m ρ c]
theorem w4_v3 : W4 m ρ c (Proc.devRef .tc main_v3) = srcIdx (X1 m c) := (W4_of_ne m ρ c main_v3 (by decide)).trans (w3_v3 m ρ c)
theorem w4_v6 : W4 m ρ c (Proc.devRef .tc main_v6) = dstIdx (X1 m c) := (W4_of_ne m ρ c main_v6 (by decide)).trans (w3_v6 m ρ c)
theorem w4_v29 : W4 m ρ c (Proc.devRef .tc main_v29) = norm (F := Ideal) (srcIdx (X1 m c)) (dstIdx (X1 m c)) := (W4_of_ne m ρ c main_v29 (by decide)).trans (w3_v29 m ρ c)
theorem w4_arg3 : W4 m ρ c (Proc.devRef .tc main_arg3) = X3 m c := (W4_of_ne m ρ c main_arg3 (by decide)).trans (w3_arg3 m ρ c)
theorem w4_arg4 : W4 m ρ c (Proc.devRef .tc main_arg4) = X4 m c := (W4_of_ne m ρ c main_arg4 (by decide)).trans (w3_arg4 m ρ c)
theorem w4_arg5 : W4 m ρ c (Proc.devRef .tc main_arg5) = X5 m c := (W4_of_ne m ρ c main_arg5 (by decide)).trans (w3_arg5 m ρ c)
theorem w4_arg6 : W4 m ρ c (Proc.devRef .tc main_arg6) = X6 m c := (W4_of_ne m ρ c main_arg6 (by decide)).trans (w3_arg6 m ρ c)
theorem w4_arg7 : W4 m ρ c (Proc.devRef .tc main_arg7) = X7 m c := (W4_of_ne m ρ c main_arg7 (by decide)).trans (w3_arg7 m ρ c)
theorem w4_arg8 : W4 m ρ c (Proc.devRef .tc main_arg8) = X8 m c := (W4_of_ne m ρ c main_arg8 (by decide)).trans (w3_arg8 m ρ c)
theorem w4_arg9 : W4 m ρ c (Proc.devRef .tc main_arg9) = X9 m c := (W4_of_ne m ρ c main_arg9 (by decide)).trans (w3_arg9 m ρ c)

/-! ## At the second stage's entry -/

theorem w5_v43 : W5 m ρ c (Proc.devRef .tc main_v43) = layer1 (X0 m c) (X1 m c) (X2 m c) := by
  refine (h1_v43 (W4 m ρ c)).trans ?_
  rw [w4_v3 m ρ c, w4_v6 m ρ c, w4_v29 m ρ c, w4_v30 m ρ c]
  rfl
theorem w5_v44 : W5 m ρ c (Proc.devRef .tc main_v44) = rowOf 16 (X3 m c) := by
  refine (h1_v44 (W4 m ρ c)).trans ?_
  rw [w4_arg3 m ρ c]
  exact row_of_cast 16 (X3 m c) _
theorem w5_v3 : W5 m ρ c (Proc.devRef .tc main_v3) = srcIdx (X1 m c) := (h1_v3 (W4 m ρ c)).trans (w4_v3 m ρ c)
theorem w5_v6 : W5 m ρ c (Proc.devRef .tc main_v6) = dstIdx (X1 m c) := (h1_v6 (W4 m ρ c)).trans (w4_v6 m ρ c)
theorem w5_v29 : W5 m ρ c (Proc.devRef .tc main_v29) = norm (F := Ideal) (srcIdx (X1 m c)) (dstIdx (X1 m c)) := (h1_v29 (W4 m ρ c)).trans (w4_v29 m ρ c)
theorem w5_arg4 : W5 m ρ c (Proc.devRef .tc main_arg4) = X4 m c := (h1_arg4 (W4 m ρ c)).trans (w4_arg4 m ρ c)
theorem w5_arg5 : W5 m ρ c (Proc.devRef .tc main_arg5) = X5 m c := (h1_arg5 (W4 m ρ c)).trans (w4_arg5 m ρ c)
theorem w5_arg6 : W5 m ρ c (Proc.devRef .tc main_arg6) = X6 m c := (h1_arg6 (W4 m ρ c)).trans (w4_arg6 m ρ c)
theorem w5_arg7 : W5 m ρ c (Proc.devRef .tc main_arg7) = X7 m c := (h1_arg7 (W4 m ρ c)).trans (w4_arg7 m ρ c)
theorem w5_arg8 : W5 m ρ c (Proc.devRef .tc main_arg8) = X8 m c := (h1_arg8 (W4 m ρ c)).trans (w4_arg8 m ρ c)
theorem w5_arg9 : W5 m ρ c (Proc.devRef .tc main_arg9) = X9 m c := (h1_arg9 (W4 m ρ c)).trans (w4_arg9 m ρ c)

/-! ## After the second stage -/

theorem w6_v45 : W6 m ρ c (Proc.devRef .tc main_v45) = GcnSpec.actProj 100000 16 4 (layer1 (X0 m c) (X1 m c) (X2 m c)) (rowOf 16 (X3 m c)) (X4 m c) := by
  refine (W6_arr m ρ c 3).trans ((Hand1.final (V5 m ρ) c).trans ?_)
  rw [show V5 m ρ c main_v43 = layer1 (X0 m c) (X1 m c) (X2 m c) from w5_v43 m ρ c, show V5 m ρ c main_v44 = rowOf 16 (X3 m c) from w5_v44 m ρ c,
    show V5 m ρ c main_arg4 = X4 m c from w5_arg4 m ρ c]
theorem w6_v3 : W6 m ρ c (Proc.devRef .tc main_v3) = srcIdx (X1 m c) := (W6_of_ne m ρ c main_v3 (by decide)).trans (w5_v3 m ρ c)
theorem w6_v6 : W6 m ρ c (Proc.devRef .tc main_v6) = dstIdx (X1 m c) := (W6_of_ne m ρ c main_v6 (by decide)).trans (w5_v6 m ρ c)
theorem w6_v29 : W6 m ρ c (Proc.devRef .tc main_v29) = norm (F := Ideal) (srcIdx (X1 m c)) (dstIdx (X1 m c)) := (W6_of_ne m ρ c main_v29 (by decide)).trans (w5_v29 m ρ c)
theorem w6_arg5 : W6 m ρ c (Proc.devRef .tc main_arg5) = X5 m c := (W6_of_ne m ρ c main_arg5 (by decide)).trans (w5_arg5 m ρ c)
theorem w6_arg6 : W6 m ρ c (Proc.devRef .tc main_arg6) = X6 m c := (W6_of_ne m ρ c main_arg6 (by decide)).trans (w5_arg6 m ρ c)
theorem w6_arg7 : W6 m ρ c (Proc.devRef .tc main_arg7) = X7 m c := (W6_of_ne m ρ c main_arg7 (by decide)).trans (w5_arg7 m ρ c)
theorem w6_arg8 : W6 m ρ c (Proc.devRef .tc main_arg8) = X8 m c := (W6_of_ne m ρ c main_arg8 (by decide)).trans (w5_arg8 m ρ c)
theorem w6_arg9 : W6 m ρ c (Proc.devRef .tc main_arg9) = X9 m c := (W6_of_ne m ρ c main_arg9 (by decide)).trans (w5_arg9 m ρ c)

/-! ## At the third stage's entry -/

theorem w7_v58 : W7 m ρ c (Proc.devRef .tc main_v58) = layer2 (X0 m c) (X1 m c) (X2 m c) (X3 m c) (X4 m c) := by
  refine (h2_v58 (W6 m ρ c)).trans ?_
  rw [w6_v3 m ρ c, w6_v6 m ρ c, w6_v29 m ρ c, w6_v45 m ρ c]
  rfl
theorem w7_v59 : W7 m ρ c (Proc.devRef .tc main_v59) = rowOf 4 (X5 m c) := by
  refine (h2_v59 (W6 m ρ c)).trans ?_
  rw [w6_arg5 m ρ c]
  exact row_of_cast 4 (X5 m c) _
theorem w7_v3 : W7 m ρ c (Proc.devRef .tc main_v3) = srcIdx (X1 m c) := (h2_v3 (W6 m ρ c)).trans (w6_v3 m ρ c)
theorem w7_v6 : W7 m ρ c (Proc.devRef .tc main_v6) = dstIdx (X1 m c) := (h2_v6 (W6 m ρ c)).trans (w6_v6 m ρ c)
theorem w7_v29 : W7 m ρ c (Proc.devRef .tc main_v29) = norm (F := Ideal) (srcIdx (X1 m c)) (dstIdx (X1 m c)) := (h2_v29 (W6 m ρ c)).trans (w6_v29 m ρ c)
theorem w7_arg6 : W7 m ρ c (Proc.devRef .tc main_arg6) = X6 m c := (h2_arg6 (W6 m ρ c)).trans (w6_arg6 m ρ c)
theorem w7_arg7 : W7 m ρ c (Proc.devRef .tc main_arg7) = X7 m c := (h2_arg7 (W6 m ρ c)).trans (w6_arg7 m ρ c)
theorem w7_arg8 : W7 m ρ c (Proc.devRef .tc main_arg8) = X8 m c := (h2_arg8 (W6 m ρ c)).trans (w6_arg8 m ρ c)
theorem w7_arg9 : W7 m ρ c (Proc.devRef .tc main_arg9) = X9 m c := (h2_arg9 (W6 m ρ c)).trans (w6_arg9 m ρ c)

/-! ## After the third stage -/

theorem w8_v60 : W8 m ρ c (Proc.devRef .tc main_v60) = GcnSpec.actProj 100000 4 2 (layer2 (X0 m c) (X1 m c) (X2 m c) (X3 m c) (X4 m c)) (rowOf 4 (X5 m c)) (X6 m c) := by
  refine (W8_arr m ρ c 3).trans ((Hand2.final (V7 m ρ) c).trans ?_)
  rw [show V7 m ρ c main_v58 = layer2 (X0 m c) (X1 m c) (X2 m c) (X3 m c) (X4 m c) from w7_v58 m ρ c, show V7 m ρ c main_v59 = rowOf 4 (X5 m c) from w7_v59 m ρ c,
    show V7 m ρ c main_arg6 = X6 m c from w7_arg6 m ρ c]
theorem w8_v3 : W8 m ρ c (Proc.devRef .tc main_v3) = srcIdx (X1 m c) := (W8_of_ne m ρ c main_v3 (by decide)).trans (w7_v3 m ρ c)
theorem w8_v6 : W8 m ρ c (Proc.devRef .tc main_v6) = dstIdx (X1 m c) := (W8_of_ne m ρ c main_v6 (by decide)).trans (w7_v6 m ρ c)
theorem w8_v29 : W8 m ρ c (Proc.devRef .tc main_v29) = norm (F := Ideal) (srcIdx (X1 m c)) (dstIdx (X1 m c)) := (W8_of_ne m ρ c main_v29 (by decide)).trans (w7_v29 m ρ c)
theorem w8_arg7 : W8 m ρ c (Proc.devRef .tc main_arg7) = X7 m c := (W8_of_ne m ρ c main_arg7 (by decide)).trans (w7_arg7 m ρ c)
theorem w8_arg8 : W8 m ρ c (Proc.devRef .tc main_arg8) = X8 m c := (W8_of_ne m ρ c main_arg8 (by decide)).trans (w7_arg8 m ρ c)
theorem w8_arg9 : W8 m ρ c (Proc.devRef .tc main_arg9) = X9 m c := (W8_of_ne m ρ c main_arg9 (by decide)).trans (w7_arg9 m ρ c)

/-! ## At the last stage's entry -/

theorem w9_v73 : W9 m ρ c (Proc.devRef .tc main_v73) = layer3 (X0 m c) (X1 m c) (X2 m c) (X3 m c) (X4 m c) (X5 m c) (X6 m c) := by
  refine (h3_v73 (W8 m ρ c)).trans ?_
  rw [w8_v3 m ρ c, w8_v6 m ρ c, w8_v29 m ρ c, w8_v60 m ρ c]
  rfl
theorem w9_v74 : W9 m ρ c (Proc.devRef .tc main_v74) = rowOf 2 (X7 m c) := by
  refine (h3_v74 (W8 m ρ c)).trans ?_
  rw [w8_arg7 m ρ c]
  exact row_of_cast 2 (X7 m c) _
theorem w9_v75 : W9 m ρ c (Proc.devRef .tc main_v75) = rowOf 8 (X9 m c) := by
  refine (h3_v75 (W8 m ρ c)).trans ?_
  rw [w8_arg9 m ρ c]
  exact row_of_cast 8 (X9 m c) _
theorem w9_arg8 : W9 m ρ c (Proc.devRef .tc main_arg8) = X8 m c := (h3_arg8 (W8 m ρ c)).trans (w8_arg8 m ρ c)

/-! ## After the last stage: the two results -/

theorem w10_hidden : W10 m ρ c (Proc.devRef .tc main_v76_0)
    = hidden (X0 m c) (X1 m c) (X2 m c) (X3 m c) (X4 m c) (X5 m c) (X6 m c) (X7 m c) := by
  refine (W10_arr m ρ c 4).trans ((Hand3.final_h (V9 m ρ) c).trans ?_)
  rw [show V9 m ρ c main_v73 = layer3 (X0 m c) (X1 m c) (X2 m c) (X3 m c) (X4 m c) (X5 m c) (X6 m c) from w9_v73 m ρ c, show V9 m ρ c main_v74 = rowOf 2 (X7 m c) from w9_v74 m ρ c]
  rfl

theorem w10_scores : W10 m ρ c (Proc.devRef .tc main_v76_1)
    = scores (X0 m c) (X1 m c) (X2 m c) (X3 m c) (X4 m c) (X5 m c) (X6 m c) (X7 m c) (X8 m c) (X9 m c) := by
  refine (W10_arr m ρ c 5).trans ((Hand3.final_o (V9 m ρ) c).trans ?_)
  rw [show V9 m ρ c main_v73 = layer3 (X0 m c) (X1 m c) (X2 m c) (X3 m c) (X4 m c) (X5 m c) (X6 m c) from w9_v73 m ρ c, show V9 m ρ c main_v74 = rowOf 2 (X7 m c) from w9_v74 m ρ c,
    show V9 m ρ c main_arg8 = X8 m c from w9_arg8 m ρ c, show V9 m ρ c main_v75 = rowOf 8 (X9 m c) from w9_v75 m ρ c]
  rfl

/-- Every weakly fair execution terminates without a fault, with the class scores and the last hidden features in the two
    result buffers and the arguments as launched. -/
theorem run : θ_run defs (onTc (τ := τ) (main (F := Ideal))) ⟨m, fun _ => 0, ρ⟩ (fun r => ∀ c : Dev nD,
      r.2.mem ((c.tc : Thread nD τ).loc main_v76_1) = scores (X0 m c) (X1 m c) (X2 m c) (X3 m c) (X4 m c) (X5 m c) (X6 m c) (X7 m c) (X8 m c) (X9 m c)
      ∧ r.2.mem ((c.tc : Thread nD τ).loc main_v76_0) = hidden (X0 m c) (X1 m c) (X2 m c) (X3 m c) (X4 m c) (X5 m c) (X6 m c) (X7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w10_scores m ρ c), (h c).2.1.trans (w10_hidden m ρ c), (h c).2.2⟩)
    (run_results m ρ)

end Cert.KernelIdeal.Hand

end
-- ==== Proof.RefOps.lean ====
/-
  The reference program's @main as a straight line of its 107 host operations, cut into eight consecutive stretches that
  follow the network: the sparse preparation (edge list, degrees, edge weights), then for each of the three layers its
  dense product, its aggregation over the edges, and its bias and tanh, and last the linear head. The program is the
  concatenation of the eight stretches; each stretch touches TensorCore buffers only.
-/
import proofs.«142854_j19318762897897_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge list with its self loops, the in-degrees, their inverse square roots and the edge weights (through `main_v29`). -/
def c0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Layer 1's dense product x · w₁. -/
def c1 : List (HloOp τ sig (Elt F)) :=
  [ binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]

/-- Layer 1's aggregation over the edges. -/
def c2 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Layer 1's bias and tanh, then layer 2's dense product. -/
def c3 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    unary main_v46 main_v47 (Host.tanh : (⟨S100000x16, .f32⟩ : BufTy).Contents (Elt F) → (⟨S100000x16, .f32⟩ : BufTy).Contents (Elt F)),
    binary main_v47 main_arg4 main_v48 ((fun l r => Host.dotGeneral dot_S100000x16_S16x4_S100000x4_1_0_0_1_n_n none l r) : (⟨S100000x16, .f32⟩ : BufTy).Contents (Elt F) → (⟨S16x4, .f32⟩ : BufTy).Contents (Elt F) → (⟨S100000x4, .f32⟩ : BufTy).Contents (Elt F)) ]

/-- Layer 2's aggregation over the edges. -/
def c4 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x4 ![0, 1] bcast_S3300000x1_S3300000x4_0_1 : (⟨S3300000x1, .f32⟩ : BufTy).Contents (Elt F) → (⟨S3300000x4, .f32⟩ : BufTy).Contents (Elt F)),
    binary main_v55 main_v57 main_v58 (mulf : (⟨S3300000x4, .f32⟩ : BufTy).Contents (Elt F) → (⟨S3300000x4, .f32⟩ : BufTy).Contents (Elt F) → (⟨S3300000x4, .f32⟩ : BufTy).Contents (Elt F)),
    nullary main_cst_11 (constant S_ .f32 0x00000000#32),
    unary main_cst_11 main_v59 (broadcastInDim S100000x4 ![] bcast_S_S100000x4 : (⟨S_, .f32⟩ : BufTy).Contents (Elt F) → (⟨S100000x4, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)) ]

/-- Layer 2's bias and tanh, then layer 3's dense product. -/
def c5 : List (HloOp τ sig (Elt F)) :=
  [ unary main_arg5 main_v62 (broadcastInDim S1x4 ![1] bcast_S4_S1x4_1 : (⟨S4, .f32⟩ : BufTy).Contents (Elt F) → (⟨S1x4, .f32⟩ : BufTy).Contents (Elt F)),
    unary main_v62 main_v63 (broadcastInDim S100000x4 ![0, 1] bcast_S1x4_S100000x4_0_1 : (⟨S1x4, .f32⟩ : BufTy).Contents (Elt F) → (⟨S100000x4, .f32⟩ : BufTy).Contents (Elt F)),
    binary main_v61 main_v63 main_v64 (addf : (⟨S100000x4, .f32⟩ : BufTy).Contents (Elt F) → (⟨S100000x4, .f32⟩ : BufTy).Contents (Elt F) → (⟨S100000x4, .f32⟩ : BufTy).Contents (Elt F)),
    unary main_v64 main_v65 (Host.tanh : (⟨S100000x4, .f32⟩ : BufTy).Contents (Elt F) → (⟨S100000x4, .f32⟩ : BufTy).Contents (Elt F)),
    binary main_v65 main_arg6 main_v66 ((fun l r => Host.dotGeneral dot_S100000x4_S4x2_S100000x2_1_0_0_1_n_n none l r) : (⟨S100000x4, .f32⟩ : BufTy).Contents (Elt F) → (⟨S4x2, .f32⟩ : BufTy).Contents (Elt F) → (⟨S100000x2, .f32⟩ : BufTy).Contents (Elt F)) ]

/-- Layer 3's aggregation over the edges. -/
def c6 : List (HloOp τ sig (Elt F)) :=
  [ nullary main_c_12 (constantI S_ 32 0#32),
    unary main_c_12 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v29 main_v74 (broadcastInDim S3300000x1 ![0] bcast_S3300000_S3300000x1_0 : (⟨S3300000, .f32⟩ : BufTy).Contents (Elt F) → (⟨S3300000x1, .f32⟩ : BufTy).Contents (Elt F)),
    unary main_v74 main_v75 (broadcastInDim S3300000x2 ![0, 1] bcast_S3300000x1_S3300000x2_0_1 : (⟨S3300000x1, .f32⟩ : BufTy).Contents (Elt F) → (⟨S3300000x2, .f32⟩ : BufTy).Contents (Elt F)),
    binary main_v73 main_v75 main_v76 (mulf : (⟨S3300000x2, .f32⟩ : BufTy).Contents (Elt F) → (⟨S3300000x2, .f32⟩ : BufTy).Contents (Elt F) → (⟨S3300000x2, .f32⟩ : BufTy).Contents (Elt F)),
    nullary main_cst_14 (constant S_ .f32 0x00000000#32),
    unary main_cst_14 main_v77 (broadcastInDim S100000x2 ![] bcast_S_S100000x2 : (⟨S_, .f32⟩ : BufTy).Contents (Elt F) → (⟨S100000x2, .f32⟩ : BufTy).Contents (Elt F)),
    unary main_v6 main_v78 (broadcastInDim S3300000x1 ![0] bcast_S3300000_S3300000x1_0 : (⟨S3300000, .i32⟩ : BufTy).Contents (Elt F) → (⟨S3300000x1, .i32⟩ : BufTy).Contents (Elt F)),
    ternary main_v77 main_v78 main_v76 main_v79 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Layer 3's bias and tanh (the hidden features), then the head's product and bias (the scores). -/
def c7 : List (HloOp τ sig (Elt F)) :=
  [ unary main_arg7 main_v80 (broadcastInDim S1x2 ![1] bcast_S2_S1x2_1 : (⟨S2, .f32⟩ : BufTy).Contents (Elt F) → (⟨S1x2, .f32⟩ : BufTy).Contents (Elt F)),
    unary main_v80 main_v81 (broadcastInDim S100000x2 ![0, 1] bcast_S1x2_S100000x2_0_1 : (⟨S1x2, .f32⟩ : BufTy).Contents (Elt F) → (⟨S100000x2, .f32⟩ : BufTy).Contents (Elt F)),
    binary main_v79 main_v81 main_v82 (addf : (⟨S100000x2, .f32⟩ : BufTy).Contents (Elt F) → (⟨S100000x2, .f32⟩ : BufTy).Contents (Elt F) → (⟨S100000x2, .f32⟩ : BufTy).Contents (Elt F)),
    unary main_v82 main_v83 (Host.tanh : (⟨S100000x2, .f32⟩ : BufTy).Contents (Elt F) → (⟨S100000x2, .f32⟩ : BufTy).Contents (Elt F)),
    binary main_v83 main_arg8 main_v84 ((fun l r => Host.dotGeneral dot_S100000x2_S2x8_S100000x8_1_0_0_1_n_n none l r) : (⟨S100000x2, .f32⟩ : BufTy).Contents (Elt F) → (⟨S2x8, .f32⟩ : BufTy).Contents (Elt F) → (⟨S100000x8, .f32⟩ : BufTy).Contents (Elt F)),
    unary main_arg9 main_v85 (broadcastInDim S1x8 ![1] bcast_S8_S1x8_1 : (⟨S8, .f32⟩ : BufTy).Contents (Elt F) → (⟨S1x8, .f32⟩ : BufTy).Contents (Elt F)),
    unary main_v85 main_v86 (broadcastInDim S100000x8 ![0, 1] bcast_S1x8_S100000x8_0_1 : (⟨S1x8, .f32⟩ : BufTy).Contents (Elt F) → (⟨S100000x8, .f32⟩ : BufTy).Contents (Elt F)),
    binary main_v84 main_v86 main_v87 (addf : (⟨S100000x8, .f32⟩ : BufTy).Contents (Elt F) → (⟨S100000x8, .f32⟩ : BufTy).Contents (Elt F) → (⟨S100000x8, .f32⟩ : BufTy).Contents (Elt F)) ]

/-- The whole program: the eight stretches in order. -/
def ops : List (HloOp τ sig (Elt F)) := c0 ++ (c1 ++ (c2 ++ (c3 ++ (c4 ++ (c5 ++ (c6 ++ c7))))))

theorem scopedRefs_eq : (Finset.univ.filter fun b : Ref sig .tc => b.isScoped) = ∅ := by decide
theorem scopedSems_eq : (Finset.univ.filter fun sm : SemLoc sig => sm.isScoped .tc) = ∅ := by decide

theorem c0_sub : (c0 : List (HloOp τ sig (Elt F))).Forall fun op => op.bufs ⊆ tcRefs τ sig := by
  unfold c0
  exact ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem c1_sub : (c1 : List (HloOp τ sig (Elt F))).Forall fun op => op.bufs ⊆ tcRefs τ sig := by
  unfold c1
  exact (List.forall_cons _ _ _).mpr ⟨binary_bufs_sub .., trivial⟩
theorem c2_sub : (c2 : List (HloOp τ sig (Elt F))).Forall fun op => op.bufs ⊆ tcRefs τ sig := by
  unfold c2
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem c3_sub : (c3 : List (HloOp τ sig (Elt F))).Forall fun op => op.bufs ⊆ tcRefs τ sig := by
  unfold c3
  exact ⟨unary_bufs_sub .., unary_bufs_sub .., binary_bufs_sub .., unary_bufs_sub .., binary_bufs_sub ..⟩
theorem c4_sub : (c4 : List (HloOp τ sig (Elt F))).Forall fun op => op.bufs ⊆ tcRefs τ sig := by
  unfold c4
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem c5_sub : (c5 : List (HloOp τ sig (Elt F))).Forall fun op => op.bufs ⊆ tcRefs τ sig := by
  unfold c5
  exact ⟨unary_bufs_sub .., unary_bufs_sub .., binary_bufs_sub .., unary_bufs_sub .., binary_bufs_sub ..⟩
theorem c6_sub : (c6 : List (HloOp τ sig (Elt F))).Forall fun op => op.bufs ⊆ tcRefs τ sig := by
  unfold c6
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem c7_sub : (c7 : List (HloOp τ sig (Elt F))).Forall fun op => op.bufs ⊆ tcRefs τ sig := by
  unfold c7
  exact ⟨unary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig := by
  unfold ops
  exact List.forall_append.mpr ⟨c0_sub, List.forall_append.mpr ⟨c1_sub, List.forall_append.mpr ⟨c2_sub, List.forall_append.mpr ⟨c3_sub,
    List.forall_append.mpr ⟨c4_sub, List.forall_append.mpr ⟨c5_sub, List.forall_append.mpr ⟨c6_sub, c7_sub⟩⟩⟩⟩⟩⟩⟩

theorem c0_fresh : (c0 : List (HloOp τ sig (Elt F))).Forall fun op => op.fresh = ∅ := by
  unfold c0
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem c1_fresh : (c1 : List (HloOp τ sig (Elt F))).Forall fun op => op.fresh = ∅ := by
  unfold c1
  exact (List.forall_cons _ _ _).mpr ⟨rfl, trivial⟩
theorem c2_fresh : (c2 : List (HloOp τ sig (Elt F))).Forall fun op => op.fresh = ∅ := by
  unfold c2
  exact ⟨rfl, rfl, rfl, rfl, rfl, rfl, rfl, rfl, rfl, rfl, rfl, rfl, rfl, rfl, rfl, rfl⟩
theorem c3_fresh : (c3 : List (HloOp τ sig (Elt F))).Forall fun op => op.fresh = ∅ := by
  unfold c3
  exact ⟨rfl, rfl, rfl, rfl, rfl⟩
theorem c4_fresh : (c4 : List (HloOp τ sig (Elt F))).Forall fun op => op.fresh = ∅ := by
  unfold c4
  exact ⟨rfl, rfl, rfl, rfl, rfl, rfl, rfl, rfl, rfl, rfl, rfl, rfl, rfl, rfl, rfl, rfl⟩
theorem c5_fresh : (c5 : List (HloOp τ sig (Elt F))).Forall fun op => op.fresh = ∅ := by
  unfold c5
  exact ⟨rfl, rfl, rfl, rfl, rfl⟩
theorem c6_fresh : (c6 : List (HloOp τ sig (Elt F))).Forall fun op => op.fresh = ∅ := by
  unfold c6
  exact ⟨rfl, rfl, rfl, rfl, rfl, rfl, rfl, rfl, rfl, rfl, rfl, rfl, rfl, rfl, rfl, rfl⟩
theorem c7_fresh : (c7 : List (HloOp τ sig (Elt F))).Forall fun op => op.fresh = ∅ := by
  unfold c7
  exact ⟨rfl, rfl, rfl, rfl, rfl, rfl, rfl, rfl⟩

/-- Every operation determines its results. -/
theorem ops_fresh : ∀ op ∈ (ops : List (HloOp τ sig (Elt F))), op.fresh = ∅ := by
  unfold ops
  exact List.forall_iff_forall_mem.mp (List.forall_append.mpr ⟨c0_fresh, List.forall_append.mpr ⟨c1_fresh, List.forall_append.mpr ⟨c2_fresh, List.forall_append.mpr ⟨c3_fresh,
    List.forall_append.mpr ⟨c4_fresh, List.forall_append.mpr ⟨c5_fresh, List.forall_append.mpr ⟨c6_fresh, c7_fresh⟩⟩⟩⟩⟩⟩⟩)

end Cert.ReferenceIdeal.Hand

end
-- ==== Proof.RefMainEq.lean ====
/-
  The reference program's @main is the straight line of its operations: its two printed windows, run in order, are the
  eight stretches run in order.
-/
import proofs.«142854_j19318762897897_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := rfl

end Cert.ReferenceIdeal.Hand

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«142854_j19318762897897_1_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.RefDense.lean ====
/-
  The reference program's dense operations read against the network's dense stages (index-by-index functions on whole
  arrays of extended reals): a layer's product x · w is the sum over the shared axis; a bias vector broadcast first to one
  row and then to every row is read at its column; tanh and the addition act entry by entry. So the host's product of
  tanh (a + bias rows) with w is the stage "tanh (a + b) · w", and the last two operations are the stages
  "tanh (a + b)" and "tanh (a + b) · w + d".
-/
import proofs.«142854_j19318762897897_1_alg».proof.Proof.Gen.ReferenceIdeal
import proofs.«142854_j19318762897897_1_alg».proof.Proof.LibPlainDotGeneral
import proofs.«142854_j19318762897897_1_alg».proof.Proof.Stages
import Idealize.ShloMosaic.Lib.Pipeline.Value

noncomputable section

namespace Cert.ReferenceIdeal.Hand

open Cert.ReferenceIdeal Cert.ReferenceIdeal.Gen
open Idealize.ShloMosaic Idealize.ShloMosaic.ValueIdx

/-- The dimension numbers of the [100000, 128] × [128, 16] product are those of a plain matrix product. -/
theorem plain1 : PlainDot.IsPlain dot_S100000x128_S128x16_S100000x16_1_0_0_1_n_n where
  rank := rfl
  size := rfl
  lhs0 := fun i q => by
    unfold DotDims.lhsIdx
    rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
    rfl
  lhs1 := fun i q => dot_S100000x128_S128x16_S100000x16_1_0_0_1_n_n.lhsIdx_val_of_single rfl i q
  rhs0 := fun i q => dot_S100000x128_S128x16_S100000x16_1_0_0_1_n_n.rhsIdx_val_of_single rfl i q
  rhs1 := fun i q => by
    unfold DotDims.rhsIdx
    rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
    rfl

/-- The dimension numbers of the [100000, 16] × [16, 4] product are those of a plain matrix product. -/
theorem plain2 : PlainDot.IsPlain dot_S100000x16_S16x4_S100000x4_1_0_0_1_n_n where
  rank := rfl
  size := rfl
  lhs0 := fun i q => by
    unfold DotDims.lhsIdx
    rw [dif_neg (show ¬(0 : Fin S100000x16.rank) ∈ dot_S100000x16_S16x4_S100000x4_1_0_0_1_n_n.lhsBatch by decide), dif_pos (show (0 : Fin S100000x16.rank) ∈ dot_S100000x16_S16x4_S100000x4_1_0_0_1_n_n.lhsNonContracting by decide)]
    rfl
  lhs1 := fun i q => dot_S100000x16_S16x4_S100000x4_1_0_0_1_n_n.lhsIdx_val_of_single rfl i q
  rhs0 := fun i q => dot_S100000x16_S16x4_S100000x4_1_0_0_1_n_n.rhsIdx_val_of_single rfl i q
  rhs1 := fun i q => by
    unfold DotDims.rhsIdx
    rw [dif_neg (show ¬(1 : Fin S16x4.rank) ∈ dot_S100000x16_S16x4_S100000x4_1_0_0_1_n_n.rhsBatch by decide), dif_pos (show (1 : Fin S16x4.rank) ∈ dot_S100000x16_S16x4_S100000x4_1_0_0_1_n_n.rhsNonContracting by decide)]
    rfl

/-- The dimension numbers of the [100000, 4] × [4, 2] product are those of a plain matrix product. -/
theorem plain3 : PlainDot.IsPlain dot_S100000x4_S4x2_S100000x2_1_0_0_1_n_n where
  rank := rfl
  size := rfl
  lhs0 := fun i q => by
    unfold DotDims.lhsIdx
    rw [dif_neg (show ¬(0 : Fin S100000x4.rank) ∈ dot_S100000x4_S4x2_S100000x2_1_0_0_1_n_n.lhsBatch by decide), dif_pos (show (0 : Fin S100000x4.rank) ∈ dot_S100000x4_S4x2_S100000x2_1_0_0_1_n_n.lhsNonContracting by decide)]
    rfl
  lhs1 := fun i q => dot_S100000x4_S4x2_S100000x2_1_0_0_1_n_n.lhsIdx_val_of_single rfl i q
  rhs0 := fun i q => dot_S100000x4_S4x2_S100000x2_1_0_0_1_n_n.rhsIdx_val_of_single rfl i q
  rhs1 := fun i q => by
    unfold DotDims.rhsIdx
    rw [dif_neg (show ¬(1 : Fin S4x2.rank) ∈ dot_S100000x4_S4x2_S100000x2_1_0_0_1_n_n.rhsBatch by decide), dif_pos (show (1 : Fin S4x2.rank) ∈ dot_S100000x4_S4x2_S100000x2_1_0_0_1_n_n.rhsNonContracting by decide)]
    rfl

/-- The dimension numbers of the [100000, 2] × [2, 8] product are those of a plain matrix product. -/
theorem plain4 : PlainDot.IsPlain dot_S100000x2_S2x8_S100000x8_1_0_0_1_n_n where
  rank := rfl
  size := rfl
  lhs0 := fun i q => by
    unfold DotDims.lhsIdx
    rw [dif_neg (show ¬(0 : Fin S100000x2.rank) ∈ dot_S100000x2_S2x8_S100000x8_1_0_0_1_n_n.lhsBatch by decide), dif_pos (show (0 : Fin S100000x2.rank) ∈ dot_S100000x2_S2x8_S100000x8_1_0_0_1_n_n.lhsNonContracting by decide)]
    rfl
  lhs1 := fun i q => dot_S100000x2_S2x8_S100000x8_1_0_0_1_n_n.lhsIdx_val_of_single rfl i q
  rhs0 := fun i q => dot_S100000x2_S2x8_S100000x8_1_0_0_1_n_n.rhsIdx_val_of_single rfl i q
  rhs1 := fun i q => by
    unfold DotDims.rhsIdx
    rw [dif_neg (show ¬(1 : Fin S2x8.rank) ∈ dot_S100000x2_S2x8_S100000x8_1_0_0_1_n_n.rhsBatch by decide), dif_pos (show (1 : Fin S2x8.rank) ∈ dot_S100000x2_S2x8_S100000x8_1_0_0_1_n_n.rhsNonContracting by decide)]
    rfl

/-- A bias vector broadcast to a one-row array and then to every row, read at (r, k): the vector at k. -/
theorem biasRows_apply {N K : Nat} (hK : K ≠ 1)
    (h1 : (⟨1, ![K]⟩ : Shape).BroadcastsInDim ⟨2, ![1, K]⟩ ![1])
    (h2 : (⟨2, ![1, K]⟩ : Shape).BroadcastsInDim ⟨2, ![N, K]⟩ ![0, 1])
    (b : FVec Ideal ⟨1, ![K]⟩ .f32) (r : Fin N) (k : Fin K) :
    broadcastInDim ⟨2, ![N, K]⟩ ![0, 1] h2 (broadcastInDim ⟨2, ![1, K]⟩ ![1] h1 b) (ix2 r k) = b (ix1 k) := by
  rw [broadcastInDim_apply ![0, 1] h2 _ (ix2 r k) (ix2 (0 : Fin 1) k) (fun a => match a with
      | ⟨0, _⟩ => by show (0 : Nat) = if (1 : Nat) = 1 then 0 else r.val; rw [if_pos rfl]
      | ⟨1, _⟩ => by show k.val = if K = 1 then 0 else k.val; rw [if_neg hK]),
    broadcastInDim_apply ![1] h1 b (ix2 (0 : Fin 1) k) (ix1 k) (fun a => match a with
      | ⟨0, _⟩ => by show k.val = if K = 1 then 0 else k.val; rw [if_neg hK])]

/-- tanh of an array plus the broadcast bias rows, read at (r, k). -/
theorem tanhBias_apply {N K : Nat} (hK : K ≠ 1)
    (h1 : (⟨1, ![K]⟩ : Shape).BroadcastsInDim ⟨2, ![1, K]⟩ ![1])
    (h2 : (⟨2, ![1, K]⟩ : Shape).BroadcastsInDim ⟨2, ![N, K]⟩ ![0, 1])
    (a : FVec Ideal ⟨2, ![N, K]⟩ .f32) (b : FVec Ideal ⟨1, ![K]⟩ .f32) (r : Fin N) (k : Fin K) :
    Host.tanh (F := Ideal) (addf a (broadcastInDim ⟨2, ![N, K]⟩ ![0, 1] h2 (broadcastInDim ⟨2, ![1, K]⟩ ![1] h1 b))) (ix2 r k)
      = Ideal.tanh (a (ix2 r k) + Cert.KernelIdeal.Chain.rowOf K b (ix2 (0 : Fin 1) k)) := by
  show Ideal.tanh (a (ix2 r k) + broadcastInDim ⟨2, ![N, K]⟩ ![0, 1] h2 (broadcastInDim ⟨2, ![1, K]⟩ ![1] h1 b) (ix2 r k)) = _
  rw [biasRows_apply hK h1 h2 b r k]
  rfl

/-- Layer 1's dense operation is the product x · w₁. -/
theorem dense1 (x : FVec Ideal S100000x128 .f32) (w : FVec Ideal S128x16 .f32) :
    Host.dotGeneral (F := Ideal) dot_S100000x128_S128x16_S100000x16_1_0_0_1_n_n none x w = GcnSpec.proj 100000 128 16 x w := by
  funext i
  obtain ⟨r, j, rfl⟩ : ∃ (r : Fin 100000) (j : Fin 16), i = ix2 r j := ⟨i 0, i 1, eq_ix2 i⟩
  rw [PlainDot.dotGeneral_apply _ plain1]
  rfl

/-- Layer 2's dense operations: tanh (a + b₁) · w₂. -/
theorem dense2 (a : FVec Ideal S100000x16 .f32) (b : FVec Ideal S16 .f32) (w : FVec Ideal S16x4 .f32) :
    Host.dotGeneral (F := Ideal) dot_S100000x16_S16x4_S100000x4_1_0_0_1_n_n none
        (Host.tanh (addf a (broadcastInDim S100000x16 ![0, 1] bcast_S1x16_S100000x16_0_1 (broadcastInDim S1x16 ![1] bcast_S16_S1x16_1 b)))) w
      = GcnSpec.actProj 100000 16 4 a (Cert.KernelIdeal.Chain.rowOf 16 b) w := by
  funext i
  obtain ⟨r, j, rfl⟩ : ∃ (r : Fin 100000) (j : Fin 4), i = ix2 r j := ⟨i 0, i 1, eq_ix2 i⟩
  rw [PlainDot.dotGeneral_apply _ plain2]
  exact Finset.sum_congr rfl fun k _ => congrArg (· * w (ix2 k j)) (tanhBias_apply (by decide) bcast_S16_S1x16_1 bcast_S1x16_S100000x16_0_1 a b r k)

/-- Layer 3's dense operations: tanh (a + b₂) · w₃. -/
theorem dense3 (a : FVec Ideal S100000x4 .f32) (b : FVec Ideal S4 .f32) (w : FVec Ideal S4x2 .f32) :
    Host.dotGeneral (F := Ideal) dot_S100000x4_S4x2_S100000x2_1_0_0_1_n_n none
        (Host.tanh (addf a (broadcastInDim S100000x4 ![0, 1] bcast_S1x4_S100000x4_0_1 (broadcastInDim S1x4 ![1] bcast_S4_S1x4_1 b)))) w
      = GcnSpec.actProj 100000 4 2 a (Cert.KernelIdeal.Chain.rowOf 4 b) w := by
  funext i
  obtain ⟨r, j, rfl⟩ : ∃ (r : Fin 100000) (j : Fin 2), i = ix2 r j := ⟨i 0, i 1, eq_ix2 i⟩
  rw [PlainDot.dotGeneral_apply _ plain3]
  exact Finset.sum_congr rfl fun k _ => congrArg (· * w (ix2 k j)) (tanhBias_apply (by decide) bcast_S4_S1x4_1 bcast_S1x4_S100000x4_0_1 a b r k)

/-- The hidden features: tanh (a + b₃). -/
theorem denseHidden (a : FVec Ideal S100000x2 .f32) (b : FVec Ideal S2 .f32) :
    Host.tanh (F := Ideal) (addf a (broadcastInDim S100000x2 ![0, 1] bcast_S1x2_S100000x2_0_1 (broadcastInDim S1x2 ![1] bcast_S2_S1x2_1 b)))
      = GcnSpec.act 100000 2 a (Cert.KernelIdeal.Chain.rowOf 2 b) := by
  funext i
  obtain ⟨r, k, rfl⟩ : ∃ (r : Fin 100000) (k : Fin 2), i = ix2 r k := ⟨i 0, i 1, eq_ix2 i⟩
  exact tanhBias_apply (by decide) bcast_S2_S1x2_1 bcast_S1x2_S100000x2_0_1 a b r k

/-- The scores: tanh (a + b₃) · w + d. -/
theorem denseScores (a : FVec Ideal S100000x2 .f32) (b : FVec Ideal S2 .f32) (w : FVec Ideal S2x8 .f32) (d : FVec Ideal S8 .f32) :
    addf (F := Ideal) (Host.dotGeneral (F := Ideal) dot_S100000x2_S2x8_S100000x8_1_0_0_1_n_n none
        (Host.tanh (addf a (broadcastInDim S100000x2 ![0, 1] bcast_S1x2_S100000x2_0_1 (broadcastInDim S1x2 ![1] bcast_S2_S1x2_1 b)))) w)
        (broadcastInDim S100000x8 ![0, 1] bcast_S1x8_S100000x8_0_1 (broadcastInDim S1x8 ![1] bcast_S8_S1x8_1 d))
      = GcnSpec.actProjBias 100000 2 8 a (Cert.KernelIdeal.Chain.rowOf 2 b) w (Cert.KernelIdeal.Chain.rowOf 8 d) := by
  funext i
  obtain ⟨r, j, rfl⟩ : ∃ (r : Fin 100000) (j : Fin 8), i = ix2 r j := ⟨i 0, i 1, eq_ix2 i⟩
  show Host.dotGeneral (F := Ideal) dot_S100000x2_S2x8_S100000x8_1_0_0_1_n_n none _ w (ix2 r j)
      + broadcastInDim S100000x8 ![0, 1] bcast_S1x8_S100000x8_0_1 (broadcastInDim S1x8 ![1] bcast_S8_S1x8_1 d) (ix2 r j) = _
  rw [PlainDot.dotGeneral_apply _ plain4, biasRows_apply (by decide) bcast_S8_S1x8_1 bcast_S1x8_S100000x8_0_1 d r j]
  exact congrArg (· + d (ix1 j)) (Finset.sum_congr rfl fun k _ => congrArg (· * w (ix2 k j)) (tanhBias_apply (by decide) bcast_S2_S1x2_1 bcast_S1x2_S100000x2_0_1 a b r k))

end Cert.ReferenceIdeal.Hand

end
-- ==== Proof.RefChunks.lean ====
/-
  What each stretch of the reference program computes, from ANY contents of the device's buffers before it: the buffer it
  is there to produce is one of the network's stages applied to the buffers it reads, and the buffers later stretches
  still need — the ten arguments, the edge list's two ends and the edge weights — are left as they were.
-/
import proofs.«142854_j19318762897897_1_alg».proof.Proof.RefOps
import proofs.«142854_j19318762897897_1_alg».proof.Proof.RefDense
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

/-- The program's ten arguments. -/
abbrev args : List (Ref sig .tc) := [main_arg0, main_arg1, main_arg2, main_arg3, main_arg4, main_arg5, main_arg6, main_arg7, main_arg8, main_arg9]
/-- The buffers the later stretches read besides the stage before them: the arguments, the two ends of every edge, the edge weights. -/
abbrev carried : List (Ref sig .tc) := [main_arg0, main_arg1, main_arg2, main_arg3, main_arg4, main_arg5, main_arg6, main_arg7, main_arg8, main_arg9, main_v3, main_v6, main_v29]

/-- Every argument is among the carried buffers. -/
theorem mem_carried {b : Ref sig .tc} (hb : b ∈ args) : b ∈ carried := by
  simp only [args, List.mem_cons, List.not_mem_nil, or_false] at hb
  rcases hb with rfl | rfl | rfl | rfl | rfl | rfl | rfl | rfl | rfl | rfl <;> decide

/-! ## Stretch 0: the edge list and the edge weights -/

/-- The source node of every edge, self loops appended. -/
theorem c0_v3 (V : Valuation τ sig (Elt Ideal)) :
    after (c0 (F := Ideal)) V (Proc.devRef .tc main_v3) = Cert.KernelIdeal.Chain.srcIdx (V (Proc.devRef .tc main_arg1)) := by
  unfold c0
  after_results
  rfl

/-- The destination node of every edge, self loops appended. -/
theorem c0_v6 (V : Valuation τ sig (Elt Ideal)) :
    after (c0 (F := Ideal)) V (Proc.devRef .tc main_v6) = Cert.KernelIdeal.Chain.dstIdx (V (Proc.devRef .tc main_arg1)) := by
  unfold c0
  after_results
  rfl

/-! ## Stretch 0 in two halves

The first half builds the edge list's two ends and, from the destinations, the in-degrees, their comparison with zero and
their inverse square roots; the second half selects between the two, reads the result at both ends of every edge and
multiplies. Each half is read on its own and the two readings are composed. -/

/-- Stretch 0's first 18 operations: the two ends of every edge, the in-degrees, their sign test and inverse square roots. -/
def c0a {F : FTy → Type} [FloatOps F] : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Stretch 0's last 22 operations: the selection, the reads at both ends of every edge, the product. -/
def c0b {F : FTy → Type} [FloatOps F] : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

theorem c0_split {F : FTy → Type} [FloatOps F] : (c0 : List (HloOp τ sig (Elt F))) = c0a ++ c0b := rfl

theorem c0a_v3 (V : Valuation τ sig (Elt Ideal)) :
    after (c0a (F := Ideal)) V (Proc.devRef .tc main_v3) = Cert.KernelIdeal.Chain.srcIdx (V (Proc.devRef .tc main_arg1)) := by
  unfold c0a
  after_results
  rfl

theorem c0a_v6 (V : Valuation τ sig (Elt Ideal)) :
    after (c0a (F := Ideal)) V (Proc.devRef .tc main_v6) = Cert.KernelIdeal.Chain.dstIdx (V (Proc.devRef .tc main_arg1)) := by
  unfold c0a
  after_results
  rfl

/-- Which nodes have a positive in-degree. -/
theorem c0a_v12 (V : Valuation τ sig (Elt Ideal)) :
    after (c0a (F := Ideal)) V (Proc.devRef .tc main_v12)
      = cmpf .ogt (Cert.KernelIdeal.Chain.deg (F := Ideal) (Cert.KernelIdeal.Chain.dstIdx (V (Proc.devRef .tc main_arg1)))) (broadcastInDim S100000 ![] bcast_S_S100000 (constant S_ .f32 0x00000000#32)) := by
  unfold c0a
  after_results
  rfl

/-- The inverse square root of every in-degree. -/
theorem c0a_v13 (V : Valuation τ sig (Elt Ideal)) :
    after (c0a (F := Ideal)) V (Proc.devRef .tc main_v13) = Host.rsqrt (Cert.KernelIdeal.Chain.deg (F := Ideal) (Cert.KernelIdeal.Chain.dstIdx (V (Proc.devRef .tc main_arg1)))) := by
  unfold c0a
  after_results
  rfl

theorem c0a_cst_2 (V : Valuation τ sig (Elt Ideal)) :
    after (c0a (F := Ideal)) V (Proc.devRef .tc main_cst_2) = constant (F := Ideal) S_ .f32 0x00000000#32 := by
  unfold c0a
  after_results

/-- The second half from any contents: the product of the selected values read at the two ends of every edge. -/
theorem c0b_v29 (U : Valuation τ sig (Elt Ideal)) :
    after (c0b (F := Ideal)) U (Proc.devRef .tc main_v29)
      = mulf (F := Ideal) (φ := .f32)
          (Host.gather Cert.KernelIdeal.gather_S100000_S3300000x1_S3300000_n_0_n_n_0_1_1 (select (U (Proc.devRef .tc main_v12)) (U (Proc.devRef .tc main_v13)) (broadcastInDim S100000 ![] bcast_S_S100000 (id (U (Proc.devRef .tc main_cst_2))))) (Cert.KernelIdeal.Chain.wrapCol (U (Proc.devRef .tc main_v3))))
          (Host.gather Cert.KernelIdeal.gather_S100000_S3300000x1_S3300000_n_0_n_n_0_1_1 (select (U (Proc.devRef .tc main_v12)) (U (Proc.devRef .tc main_v13)) (broadcastInDim S100000 ![] bcast_S_S100000 (id (U (Proc.devRef .tc main_cst_2))))) (Cert.KernelIdeal.Chain.wrapCol (U (Proc.devRef .tc main_v6)))) := by
  unfold c0b
  after_results_simp <;> rfl

/-- The weight of every edge. -/
theorem c0_v29 (V : Valuation τ sig (Elt Ideal)) :
    after (c0 (F := Ideal)) V (Proc.devRef .tc main_v29)
      = Cert.KernelIdeal.Chain.norm (F := Ideal) (Cert.KernelIdeal.Chain.srcIdx (V (Proc.devRef .tc main_arg1))) (Cert.KernelIdeal.Chain.dstIdx (V (Proc.devRef .tc main_arg1))) := by
  rw [c0_split, after_append, c0b_v29, c0a_v12, c0a_v13, c0a_cst_2, c0a_v3, c0a_v6]
  rfl

/-- Stretch 0 writes none of these buffers. -/
theorem c0_keep (V : Valuation τ sig (Elt Ideal)) {b : Ref sig .tc} (hb : b ∈ args) :
    after (c0 (F := Ideal)) V (no_index (Proc.devRef .tc b)) = V (Proc.devRef .tc b) := by
  unfold c0
  simp only [args, List.mem_cons, List.not_mem_nil, or_false] at hb
  rcases hb with rfl | rfl | rfl | rfl | rfl | rfl | rfl | rfl | rfl | rfl <;> (after_results_simp <;> rfl)

/-! ## The three layers and the head -/

/-- Stretch 1 is layer 1's dense product. -/
theorem c1_v30 (V : Valuation τ sig (Elt Ideal)) :
    after (c1 (F := Ideal)) V (Proc.devRef .tc main_v30) = GcnSpec.proj 100000 128 16 (V (Proc.devRef .tc main_arg0)) (V (Proc.devRef .tc main_arg2)) := by
  unfold c1
  after_results
  exact dense1 _ _

/-- Stretch 1 writes none of these buffers. -/
theorem c1_keep (V : Valuation τ sig (Elt Ideal)) {b : Ref sig .tc} (hb : b ∈ carried) :
    after (c1 (F := Ideal)) V (no_index (Proc.devRef .tc b)) = V (Proc.devRef .tc b) := by
  unfold c1
  simp only [carried, List.mem_cons, List.not_mem_nil, or_false] at hb
  rcases hb with rfl | rfl | rfl | rfl | rfl | rfl | rfl | rfl | rfl | rfl | rfl | rfl | rfl <;> (after_results_simp <;> rfl)

/-- Stretch 2 is one aggregation over the edges: of the dense product before it, with the edge list and weights of stretch 0. -/
theorem c2_v43 (V : Valuation τ sig (Elt Ideal)) :
    after (c2 (F := Ideal)) V (Proc.devRef .tc main_v43)
      = Cert.KernelIdeal.Chain.agg16 (F := Ideal) (V (Proc.devRef .tc main_v3)) (V (Proc.devRef .tc main_v6)) (V (Proc.devRef .tc main_v29)) (V (Proc.devRef .tc main_v30)) := by
  unfold c2
  after_results_simp <;> rfl

/-- Stretch 2 writes none of these buffers. -/
theorem c2_keep (V : Valuation τ sig (Elt Ideal)) {b : Ref sig .tc} (hb : b ∈ carried) :
    after (c2 (F := Ideal)) V (no_index (Proc.devRef .tc b)) = V (Proc.devRef .tc b) := by
  unfold c2
  simp only [carried, List.mem_cons, List.not_mem_nil, or_false] at hb
  rcases hb with rfl | rfl | rfl | rfl | rfl | rfl | rfl | rfl | rfl | rfl | rfl | rfl | rfl <;> (after_results_simp <;> rfl)

/-- Stretch 3 is layer 1's bias and tanh and layer 2's dense product. -/
theorem c3_v48 (V : Valuation τ sig (Elt Ideal)) :
    after (c3 (F := Ideal)) V (Proc.devRef .tc main_v48)
      = GcnSpec.actProj 100000 16 4 (V (Proc.devRef .tc main_v43)) (Cert.KernelIdeal.Chain.rowOf 16 (V (Proc.devRef .tc main_arg3))) (V (Proc.devRef .tc main_arg4)) := by
  unfold c3
  after_results
  exact dense2 _ _ _

/-- Stretch 3 writes none of these buffers. -/
theorem c3_keep (V : Valuation τ sig (Elt Ideal)) {b : Ref sig .tc} (hb : b ∈ carried) :
    after (c3 (F := Ideal)) V (no_index (Proc.devRef .tc b)) = V (Proc.devRef .tc b) := by
  unfold c3
  simp only [carried, List.mem_cons, List.not_mem_nil, or_false] at hb
  rcases hb with rfl | rfl | rfl | rfl | rfl | rfl | rfl | rfl | rfl | rfl | rfl | rfl | rfl <;> (after_results_simp <;> rfl)

/-- Stretch 4 is one aggregation over the edges: of the dense product before it, with the edge list and weights of stretch 0. -/
theorem c4_v61 (V : Valuation τ sig (Elt Ideal)) :
    after (c4 (F := Ideal)) V (Proc.devRef .tc main_v61)
      = Cert.KernelIdeal.Chain.agg4 (F := Ideal) (V (Proc.devRef .tc main_v3)) (V (Proc.devRef .tc main_v6)) (V (Proc.devRef .tc main_v29)) (V (Proc.devRef .tc main_v48)) := by
  unfold c4
  after_results_simp <;> rfl

/-- Stretch 4 writes none of these buffers. -/
theorem c4_keep (V : Valuation τ sig (Elt Ideal)) {b : Ref sig .tc} (hb : b ∈ carried) :
    after (c4 (F := Ideal)) V (no_index (Proc.devRef .tc b)) = V (Proc.devRef .tc b) := by
  unfold c4
  simp only [carried, List.mem_cons, List.not_mem_nil, or_false] at hb
  rcases hb with rfl | rfl | rfl | rfl | rfl | rfl | rfl | rfl | rfl | rfl | rfl | rfl | rfl <;> (after_results_simp <;> rfl)

/-- Stretch 5 is layer 2's bias and tanh and layer 3's dense product. -/
theorem c5_v66 (V : Valuation τ sig (Elt Ideal)) :
    after (c5 (F := Ideal)) V (Proc.devRef .tc main_v66)
      = GcnSpec.actProj 100000 4 2 (V (Proc.devRef .tc main_v61)) (Cert.KernelIdeal.Chain.rowOf 4 (V (Proc.devRef .tc main_arg5))) (V (Proc.devRef .tc main_arg6)) := by
  unfold c5
  after_results
  exact dense3 _ _ _

/-- Stretch 5 writes none of these buffers. -/
theorem c5_keep (V : Valuation τ sig (Elt Ideal)) {b : Ref sig .tc} (hb : b ∈ carried) :
    after (c5 (F := Ideal)) V (no_index (Proc.devRef .tc b)) = V (Proc.devRef .tc b) := by
  unfold c5
  simp only [carried, List.mem_cons, List.not_mem_nil, or_false] at hb
  rcases hb with rfl | rfl | rfl | rfl | rfl | rfl | rfl | rfl | rfl | rfl | rfl | rfl | rfl <;> (after_results_simp <;> rfl)

/-- Stretch 6 is one aggregation over the edges: of the dense product before it, with the edge list and weights of stretch 0. -/
theorem c6_v79 (V : Valuation τ sig (Elt Ideal)) :
    after (c6 (F := Ideal)) V (Proc.devRef .tc main_v79)
      = Cert.KernelIdeal.Chain.agg2 (F := Ideal) (V (Proc.devRef .tc main_v3)) (V (Proc.devRef .tc main_v6)) (V (Proc.devRef .tc main_v29)) (V (Proc.devRef .tc main_v66)) := by
  unfold c6
  after_results_simp <;> rfl

/-- Stretch 6 writes none of these buffers. -/
theorem c6_keep (V : Valuation τ sig (Elt Ideal)) {b : Ref sig .tc} (hb : b ∈ carried) :
    after (c6 (F := Ideal)) V (no_index (Proc.devRef .tc b)) = V (Proc.devRef .tc b) := by
  unfold c6
  simp only [carried, List.mem_cons, List.not_mem_nil, or_false] at hb
  rcases hb with rfl | rfl | rfl | rfl | rfl | rfl | rfl | rfl | rfl | rfl | rfl | rfl | rfl <;> (after_results_simp <;> rfl)

/-- Stretch 7 produces the hidden features: layer 3's bias and tanh. -/
theorem c7_v83 (V : Valuation τ sig (Elt Ideal)) :
    after (c7 (F := Ideal)) V (Proc.devRef .tc main_v83)
      = GcnSpec.act 100000 2 (V (Proc.devRef .tc main_v79)) (Cert.KernelIdeal.Chain.rowOf 2 (V (Proc.devRef .tc main_arg7))) := by
  unfold c7
  after_results
  exact denseHidden _ _

/-- Stretch 7 produces the scores: the hidden features times the head's weights, plus the head's bias. -/
theorem c7_v87 (V : Valuation τ sig (Elt Ideal)) :
    after (c7 (F := Ideal)) V (Proc.devRef .tc main_v87)
      = GcnSpec.actProjBias 100000 2 8 (V (Proc.devRef .tc main_v79)) (Cert.KernelIdeal.Chain.rowOf 2 (V (Proc.devRef .tc main_arg7))) (V (Proc.devRef .tc main_arg8)) (Cert.KernelIdeal.Chain.rowOf 8 (V (Proc.devRef .tc main_arg9))) := by
  unfold c7
  after_results
  exact denseScores _ _ _ _

/-- Stretch 7 writes none of these buffers. -/
theorem c7_keep (V : Valuation τ sig (Elt Ideal)) {b : Ref sig .tc} (hb : b ∈ args) :
    after (c7 (F := Ideal)) V (no_index (Proc.devRef .tc b)) = V (Proc.devRef .tc b) := by
  unfold c7
  simp only [args, List.mem_cons, List.not_mem_nil, or_false] at hb
  rcases hb with rfl | rfl | rfl | rfl | rfl | rfl | rfl | rfl | rfl | rfl <;> (after_results_simp <;> rfl)

end Cert.ReferenceIdeal.Hand

end
-- ==== Proof.RefRun.lean ====
/-
  The reference program's run, read back as the network: every weakly fair execution of @main terminates, with the
  first result at the class scores and the second at the last hidden features — the two functions of the ten arguments
  that Stages.lean names — and the arguments unchanged. The program is a straight line of host operations, so what a
  buffer holds at the end is the fold of the operations over the launch contents; the fold is taken one stretch at a
  time, each stretch contributing one stage of the network.
-/
import proofs.«142854_j19318762897897_1_alg».proof.Proof.RefMainEq
import proofs.«142854_j19318762897897_1_alg».proof.Proof.RefChunks
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

/-! The stretches' readings once more, in the form that applies at whatever contents a stretch starts from: the contents
    the stretches before it have left. -/

theorem c7_v87' (V : Valuation τ sig (Elt Ideal)) :
    after (c7 (F := Ideal)) V (no_index (Proc.devRef .tc main_v87))
      = GcnSpec.actProjBias 100000 2 8 (V (Proc.devRef .tc main_v79)) (Cert.KernelIdeal.Chain.rowOf 2 (V (Proc.devRef .tc main_arg7))) (V (Proc.devRef .tc main_arg8)) (Cert.KernelIdeal.Chain.rowOf 8 (V (Proc.devRef .tc main_arg9))) := c7_v87 V
theorem c7_v83' (V : Valuation τ sig (Elt Ideal)) :
    after (c7 (F := Ideal)) V (no_index (Proc.devRef .tc main_v83))
      = GcnSpec.act 100000 2 (V (Proc.devRef .tc main_v79)) (Cert.KernelIdeal.Chain.rowOf 2 (V (Proc.devRef .tc main_arg7))) := c7_v83 V
theorem c6_v79' (V : Valuation τ sig (Elt Ideal)) :
    after (c6 (F := Ideal)) V (no_index (Proc.devRef .tc main_v79))
      = Cert.KernelIdeal.Chain.agg2 (F := Ideal) (V (Proc.devRef .tc main_v3)) (V (Proc.devRef .tc main_v6)) (V (Proc.devRef .tc main_v29)) (V (Proc.devRef .tc main_v66)) := c6_v79 V
theorem c5_v66' (V : Valuation τ sig (Elt Ideal)) :
    after (c5 (F := Ideal)) V (no_index (Proc.devRef .tc main_v66))
      = GcnSpec.actProj 100000 4 2 (V (Proc.devRef .tc main_v61)) (Cert.KernelIdeal.Chain.rowOf 4 (V (Proc.devRef .tc main_arg5))) (V (Proc.devRef .tc main_arg6)) := c5_v66 V
theorem c4_v61' (V : Valuation τ sig (Elt Ideal)) :
    after (c4 (F := Ideal)) V (no_index (Proc.devRef .tc main_v61))
      = Cert.KernelIdeal.Chain.agg4 (F := Ideal) (V (Proc.devRef .tc main_v3)) (V (Proc.devRef .tc main_v6)) (V (Proc.devRef .tc main_v29)) (V (Proc.devRef .tc main_v48)) := c4_v61 V
theorem c3_v48' (V : Valuation τ sig (Elt Ideal)) :
    after (c3 (F := Ideal)) V (no_index (Proc.devRef .tc main_v48))
      = GcnSpec.actProj 100000 16 4 (V (Proc.devRef .tc main_v43)) (Cert.KernelIdeal.Chain.rowOf 16 (V (Proc.devRef .tc main_arg3))) (V (Proc.devRef .tc main_arg4)) := c3_v48 V
theorem c2_v43' (V : Valuation τ sig (Elt Ideal)) :
    after (c2 (F := Ideal)) V (no_index (Proc.devRef .tc main_v43))
      = Cert.KernelIdeal.Chain.agg16 (F := Ideal) (V (Proc.devRef .tc main_v3)) (V (Proc.devRef .tc main_v6)) (V (Proc.devRef .tc main_v29)) (V (Proc.devRef .tc main_v30)) := c2_v43 V
theorem c1_v30' (V : Valuation τ sig (Elt Ideal)) :
    after (c1 (F := Ideal)) V (no_index (Proc.devRef .tc main_v30))
      = GcnSpec.proj 100000 128 16 (V (Proc.devRef .tc main_arg0)) (V (Proc.devRef .tc main_arg2)) := c1_v30 V
theorem c0_v29' (V : Valuation τ sig (Elt Ideal)) :
    after (c0 (F := Ideal)) V (no_index (Proc.devRef .tc main_v29))
      = Cert.KernelIdeal.Chain.norm (F := Ideal) (Cert.KernelIdeal.Chain.srcIdx (V (Proc.devRef .tc main_arg1))) (Cert.KernelIdeal.Chain.dstIdx (V (Proc.devRef .tc main_arg1))) := c0_v29 V
theorem c0_v6' (V : Valuation τ sig (Elt Ideal)) :
    after (c0 (F := Ideal)) V (no_index (Proc.devRef .tc main_v6))
      = Cert.KernelIdeal.Chain.dstIdx (V (Proc.devRef .tc main_arg1)) := c0_v6 V
theorem c0_v3' (V : Valuation τ sig (Elt Ideal)) :
    after (c0 (F := Ideal)) V (no_index (Proc.devRef .tc main_v3))
      = Cert.KernelIdeal.Chain.srcIdx (V (Proc.devRef .tc main_arg1)) := c0_v3 V

/-- After the whole program the first result holds the class scores of the contents the arguments had before it. -/
theorem ops_v87 (V : Valuation τ sig (Elt Ideal)) :
    after (ops (F := Ideal)) V (Proc.devRef .tc main_v87)
      = Cert.KernelIdeal.Chain.scores (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold ops
  simp (disch := decide) only [after_append, c7_v87', c7_v83', c6_v79', c5_v66', c4_v61', c3_v48', c2_v43', c1_v30', c0_v29', c0_v6', c0_v3',
    c7_keep, c6_keep, c5_keep, c4_keep, c3_keep, c2_keep, c1_keep, c0_keep]
  rfl

/-- After the whole program the second result holds the last hidden features. -/
theorem ops_v83 (V : Valuation τ sig (Elt Ideal)) :
    after (ops (F := Ideal)) V (Proc.devRef .tc main_v83)
      = Cert.KernelIdeal.Chain.hidden (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold ops
  simp (disch := decide) only [after_append, c7_v87', c7_v83', c6_v79', c5_v66', c4_v61', c3_v48', c2_v43', c1_v30', c0_v29', c0_v6', c0_v3',
    c7_keep, c6_keep, c5_keep, c4_keep, c3_keep, c2_keep, c1_keep, c0_keep]
  rfl

/-- The program writes none of its arguments. -/
theorem ops_arg (V : Valuation τ sig (Elt Ideal)) {b : Ref sig .tc} (hb : b ∈ args) :
    after (ops (F := Ideal)) V (Proc.devRef .tc b) = V (Proc.devRef .tc b) := by
  unfold ops
  simp only [after_append]
  rw [c7_keep _ hb, c6_keep _ (mem_carried hb), c5_keep _ (mem_carried hb), c4_keep _ (mem_carried hb),
    c3_keep _ (mem_carried hb), c2_keep _ (mem_carried hb), c1_keep _ (mem_carried hb), c0_keep _ hb]

/-- On the device, from any memory with zero counters: every weakly fair execution of @main terminates with the two
    results at the network's scores and hidden features of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87) = Cert.KernelIdeal.Chain.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v83) = Cert.KernelIdeal.Chain.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v87).trans (ops_v87 _), (h c main_v83).trans (ops_v83 _),
      (h c main_arg0).trans (ops_arg _ (by decide)),
      (h c main_arg1).trans (ops_arg _ (by decide)),
      (h c main_arg2).trans (ops_arg _ (by decide)),
      (h c main_arg3).trans (ops_arg _ (by decide)),
      (h c main_arg4).trans (ops_arg _ (by decide)),
      (h c main_arg5).trans (ops_arg _ (by decide)),
      (h c main_arg6).trans (ops_arg _ (by decide)),
      (h c main_arg7).trans (ops_arg _ (by decide)),
      (h c main_arg8).trans (ops_arg _ (by decide)),
      (h c main_arg9).trans (ops_arg _ (by decide))⟩)
    (run_seq scopedRefs_eq scopedSems_eq defs main (fun _ => ops) main_eq (fun _ => ops_sub) m ρ (fun _ => ops_fresh))

end Cert.ReferenceIdeal.Hand

end
-- ==== Proof.lean ====
/-
  A three-layer graph-convolution network with a linear head, on 100000 nodes and 3.2 million edges: the kernel computes
  the dense part of every layer (the product with the layer's weights; from the second layer on, the bias and tanh of the
  layer before it first) in tiles of 5000 nodes, and leaves the sparse part (edge list with self loops, symmetric degree
  normalisation, gather along the edges, scatter-add at the destinations) to the same host operations the reference uses.
  Over the extended reals both programs end with the same two arrays, index by index: a tile of a product only reads its
  own rows of the left factor, so the tiles put together are the whole product; rounding the factors to a narrower format
  is the identity; and the sparse operations in between are applied to equal arrays. No algebraic law beyond the
  definition of a matrix product as a sum over the shared axis is used, so the finiteness of the inputs is never needed.
  The three frames: the two kernel programs' are the generated ones; the reference's is its run with the results dropped.
  The idealization rewrote no operation, so there is nothing to preserve.
-/
import proofs.«142854_j19318762897897_1_alg».proof.Defs
import proofs.«142854_j19318762897897_1_alg».proof.Proof.Gen.Kernel
import proofs.«142854_j19318762897897_1_alg».proof.Proof.Gen.Kernel.Skeleton
import proofs.«142854_j19318762897897_1_alg».proof.Proof.Gen.Kernel.Launch
import proofs.«142854_j19318762897897_1_alg».proof.Proof.Gen.Kernel.Points
import proofs.«142854_j19318762897897_1_alg».proof.Proof.Gen.Kernel.Frame
import proofs.«142854_j19318762897897_1_alg».proof.Proof.Gen.KernelIdeal
import proofs.«142854_j19318762897897_1_alg».proof.Proof.Gen.KernelIdeal.Skeleton
import proofs.«142854_j19318762897897_1_alg».proof.Proof.Gen.KernelIdeal.Launch
import proofs.«142854_j19318762897897_1_alg».proof.Proof.Gen.KernelIdeal.Points
import proofs.«142854_j19318762897897_1_alg».proof.Proof.Gen.KernelIdeal.Frame
import proofs.«142854_j19318762897897_1_alg».proof.Proof.Gen.ReferenceIdeal
import proofs.«142854_j19318762897897_1_alg».proof.Proof.Gen.Pre_finite_inputs
import proofs.«142854_j19318762897897_1_alg».proof.Proof.KChain
import proofs.«142854_j19318762897897_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Hand.run m ρ)

theorem preserves : Cert.preserves_Kernel_KernelIdeal := trivial

/-- Both programs end with the network's class scores and last hidden features, as one function of arguments that agree. -/
theorem algebraic : Cert.algebraic_KernelIdeal_ReferenceIdeal := by
  intro m ρ m' ρ' _ hagree
  refine ⟨fun c => Cert.KernelIdeal.Chain.scores (Cert.KernelIdeal.Hand.X0 m c) (Cert.KernelIdeal.Hand.X1 m c) (Cert.KernelIdeal.Hand.X2 m c) (Cert.KernelIdeal.Hand.X3 m c) (Cert.KernelIdeal.Hand.X4 m c) (Cert.KernelIdeal.Hand.X5 m c) (Cert.KernelIdeal.Hand.X6 m c) (Cert.KernelIdeal.Hand.X7 m c) (Cert.KernelIdeal.Hand.X8 m c) (Cert.KernelIdeal.Hand.X9 m c),
    fun c => Cert.KernelIdeal.Chain.hidden (Cert.KernelIdeal.Hand.X0 m c) (Cert.KernelIdeal.Hand.X1 m c) (Cert.KernelIdeal.Hand.X2 m c) (Cert.KernelIdeal.Hand.X3 m c) (Cert.KernelIdeal.Hand.X4 m c) (Cert.KernelIdeal.Hand.X5 m c) (Cert.KernelIdeal.Hand.X6 m c) (Cert.KernelIdeal.Hand.X7 m c),
    Cert.KernelIdeal.Hand.run m ρ, ?_⟩
  refine (θ_run Cert.ReferenceIdeal.defs _ _).mono (fun _ h c => ?_) (Cert.ReferenceIdeal.Hand.run m' ρ')
  obtain ⟨a0, a1, a2, a3, a4, a5, a6, a7, a8, a9⟩ := hagree c
  refine ⟨(h c).1.trans ?_, (h c).2.1.trans ?_, (h c).2.2⟩
  · rw [a0, a1, a2, a3, a4, a5, a6, a7, a8, a9]
  · rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
